-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v48) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x21x128x128 : Shape := ⟨4, ![64, 21, 128, 128]⟩
abbrev S64x21x2 : Shape := ⟨3, ![64, 21, 2]⟩
abbrev S_ : Shape := ⟨0, ![]⟩

class Facts : Prop where
  bcast_S_S64x21x128x128 : S_.BroadcastsInDim S64x21x128x128 (![] : Fin 0 → Fin S64x21x128x128.rank)
  reducesTo_S64x21x128x128_S_d0_1_2_3 : S64x21x128x128.ReducesTo [0, 1, 2, 3] S_
  h_S_ : 0 < S_.numel
  bcast_S_S64x21x2 : S_.BroadcastsInDim S64x21x2 (![] : Fin 0 → Fin S64x21x2.rank)
  reducesTo_S64x21x2_S_d0_1_2 : S64x21x2.ReducesTo [0, 1, 2] S_

variable [Facts]

def fn {F : FTy → Type} [FloatOps F] (main_arg0 : FVec F S64x21x128x128 .f32) (main_arg1 : FVec F S64x21x128x128 .f32) (main_arg2 : FVec F S64x21x2 .f32) : IVec S_ 1 :=
  let main_v0 : FVec F S64x21x128x128 .f32 := Host.absf main_arg0
  let main_cst : FVec F S_ .f32 := constant S_ .f32 0x7F800000#32
  let main_v1 : FVec F S64x21x128x128 .f32 := broadcastInDim S64x21x128x128 ![] bcast_S_S64x21x128x128 main_cst
  let main_v2 : IVec S64x21x128x128 1 := cmpf .olt main_v0 main_v1
  let main_c : IVec S_ 1 := constantI S_ 1 1#1
  let main_v3 : IVec S_ 1 := (fun x v => Host.reduce IntOp.andi x v reducesTo_S64x21x128x128_S_d0_1_2_3 h_S_) main_v2 main_c
  let main_v4 : FVec F S64x21x128x128 .f32 := Host.absf main_arg1
  let main_cst_0 : FVec F S_ .f32 := constant S_ .f32 0x7F800000#32
  let main_v5 : FVec F S64x21x128x128 .f32 := broadcastInDim S64x21x128x128 ![] bcast_S_S64x21x128x128 main_cst_0
  let main_v6 : IVec S64x21x128x128 1 := cmpf .olt main_v4 main_v5
  let main_c_1 : IVec S_ 1 := constantI S_ 1 1#1
  let main_v7 : IVec S_ 1 := (fun x v => Host.reduce IntOp.andi x v reducesTo_S64x21x128x128_S_d0_1_2_3 h_S_) main_v6 main_c_1
  let main_v8 : IVec S_ 1 := andi main_v3 main_v7
  let main_v9 : FVec F S64x21x2 .f32 := Host.absf main_arg2
  let main_cst_2 : FVec F S_ .f32 := constant S_ .f32 0x7F800000#32
  let main_v10 : FVec F S64x21x2 .f32 := broadcastInDim S64x21x2 ![] bcast_S_S64x21x2 main_cst_2
  let main_v11 : IVec S64x21x2 1 := cmpf .olt main_v9 main_v10
  let main_c_3 : IVec S_ 1 := constantI S_ 1 1#1
  let main_v12 : IVec S_ 1 := (fun x v => Host.reduce IntOp.andi x v reducesTo_S64x21x2_S_d0_1_2 h_S_) main_v11 main_c_3
  let main_v13 : IVec S_ 1 := andi main_v8 main_v12
  main_v13
-- ==== Kernel.lean ====
abbrev S64x21x128x128 : Shape := ⟨4, ![64, 21, 128, 128]⟩
abbrev S64x21x2 : Shape := ⟨3, ![64, 21, 2]⟩
abbrev S1x1 : Shape := ⟨2, ![1, 1]⟩
abbrev S1x21x128x128 : Shape := ⟨4, ![1, 21, 128, 128]⟩
abbrev S1x21x2 : Shape := ⟨3, ![1, 21, 2]⟩
abbrev S21x128x128 : Shape := ⟨3, ![21, 128, 128]⟩
abbrev S21x128 : Shape := ⟨2, ![21, 128]⟩
abbrev S21x128x1 : Shape := ⟨3, ![21, 128, 1]⟩
abbrev S21x1 : Shape := ⟨2, ![21, 1]⟩
abbrev S21x1x1 : Shape := ⟨3, ![21, 1, 1]⟩
abbrev S1x1x1 : Shape := ⟨3, ![1, 1, 1]⟩
abbrev S21x2 : Shape := ⟨2, ![21, 2]⟩
abbrev S21 : Shape := ⟨1, ![21]⟩
abbrev S1 : Shape := ⟨1, ![1]⟩
abbrev S_ : Shape := ⟨0, ![]⟩

abbrev nBuf : Space → Nat
  | .hbm => 16
  | .vmem => 8
  | .smem => 0
  | _ => 0

abbrev bufTy : (tb : Table) → Fin (tcTables nBuf tb) → BufTy
  | .hbm, ⟨0, _⟩ => ⟨S64x21x128x128, .f32⟩
  | .hbm, ⟨1, _⟩ => ⟨S64x21x128x128, .f32⟩
  | .hbm, ⟨2, _⟩ => ⟨S64x21x2, .f32⟩
  | .hbm, ⟨3, _⟩ => ⟨S1x1, .f32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S1x21x128x128, .f32⟩
  | .local _ .vmem, ⟨1, _⟩ => ⟨S1x21x128x128, .f32⟩
  | .local _ .vmem, ⟨2, _⟩ => ⟨S1x21x128x128, .f32⟩
  | .local _ .vmem, ⟨3, _⟩ => ⟨S1x21x128x128, .f32⟩
  | .local _ .vmem, ⟨4, _⟩ => ⟨S1x21x2, .f32⟩
  | .local _ .vmem, ⟨5, _⟩ => ⟨S1x21x2, .f32⟩
  | .local _ .vmem, ⟨6, _⟩ => ⟨S1x1, .f32⟩
  | .local _ .vmem, ⟨7, _⟩ => ⟨S1x1, .f32⟩
  | _, _ => ⟨S64x21x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x21x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x21x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x21x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  inb_S1x1_S1x1_0_0 : ∀ a, (![0, 0] : Fin 2 → Nat) a + S1x1.size a ≤ S1x1.size a
  h_S1x1 : 0 < S1x1.numel
  inb_S1x21x128x128_S1x21x128x128_0_0_0_0 : ∀ a, (![0, 0, 0, 0] : Fin 4 → Nat) a + S1x21x128x128.size a ≤ S1x21x128x128.size a
  h_S1x21x128x128 : 0 < S1x21x128x128.numel
  shapeCasts_S1x21x128x128_S21x128x128 : S1x21x128x128.ShapeCasts S21x128x128
  reduces_S21x128x128_S21x128 : S21x128x128.Reduces [2] S21x128
  shapeCasts_S21x128_S21x128x1 : S21x128.ShapeCasts S21x128x1
  reduces_S21x128x1_S21x1 : S21x128x1.Reduces [1] S21x1
  shapeCasts_S21x1_S21x1x1 : S21x1.ShapeCasts S21x1x1
  reduces_S21x1x1_S1x1 : S21x1x1.Reduces [0] S1x1
  shapeCasts_S1x1_S1x1x1 : S1x1.ShapeCasts S1x1x1
  shapeCasts_S1x1_S1x1 : S1x1.ShapeCasts S1x1
  shapeCasts_S1x1x1_S1x1 : S1x1x1.ShapeCasts S1x1
  inb_S1x21x2_S1x21x2_0_0_0 : ∀ a, (![0, 0, 0] : Fin 3 → Nat) a + S1x21x2.size a ≤ S1x21x2.size a
  h_S1x21x2 : 0 < S1x21x2.numel
  shapeCasts_S1x21x2_S21x2 : S1x21x2.ShapeCasts S21x2
  slices_S21x2_o0_0_S21x1 : S21x2.Slices ![0, 0] S21x1
  shapeCasts_S21x1_S21 : S21x1.ShapeCasts S21
  slices_S21x2_o0_1_S21x1 : S21x2.Slices ![0, 1] S21x1
  iota_S21x128_d1_w32 : S21x128.Iotas .tc 32 [1]
  shapeCasts_S21_S21x1 : S21.ShapeCasts S21x1
  broadcasts_S21x1_S21x128 : S21x1.Broadcasts S21x128
  natLt_1_32 : 1 < 32
  broadcasts_S21x128x1_S21x128x128 : S21x128x1.Broadcasts S21x128x128
  reduces_S21x128x128_S21x128_2 : S21x128x128.Reduces [1] S21x128
  reduces_S21x128_S21 : S21x128.Reduces [1] S21
  reduces_S21x1_S1 : S21x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x21x128x128.size a ≤ S64x21x128x128.size a
  hwx0_0 : ∀ i : grid0.Coords, EltTy.bits .f32 = 32 ∨ (Rect.block (s := S64x21x128x128) S1x21x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x21x128x128.size a ≤ S64x21x128x128.size a
  hwx0_1 : ∀ i : grid0.Coords, EltTy.bits .f32 = 32 ∨ (Rect.block (s := S64x21x128x128) S1x21x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x21x2.size a ≤ S64x21x2.size a
  hwx0_2 : ∀ i : grid0.Coords, EltTy.bits .f32 = 32 ∨ (Rect.block (s := S64x21x2) S1x21x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

abbrev win0_0 : Pipeline.Window sig grid0 :=
  Pipeline.Window.ofSpec (Memref.whole main_arg0) S1x21x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x21x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x21x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x21x128x128 : Shape := ⟨4, ![64, 21, 128, 128]⟩
abbrev S64x21x2 : Shape := ⟨3, ![64, 21, 2]⟩
abbrev S_ : Shape := ⟨0, ![]⟩
abbrev S64x21x1 : Shape := ⟨3, ![64, 21, 1]⟩
abbrev S64x21 : Shape := ⟨2, ![64, 21]⟩
abbrev S64 : Shape := ⟨1, ![64]⟩
abbrev S64x1 : Shape := ⟨2, ![64, 1]⟩
abbrev S21 : Shape := ⟨1, ![21]⟩
abbrev S1x21 : Shape := ⟨2, ![1, 21]⟩
abbrev S64x21x4 : Shape := ⟨3, ![64, 21, 4]⟩

abbrev nBuf : Space → Nat
  | .hbm => 84
  | .vmem => 0
  | .smem => 0
  | _ => 0

abbrev bufTy : (tb : Table) → Fin (tcTables nBuf tb) → BufTy
  | .hbm, ⟨0, _⟩ => ⟨S64x21x128x128, .f32⟩
  | .hbm, ⟨1, _⟩ => ⟨S64x21x128x128, .f32⟩
  | .hbm, ⟨2, _⟩ => ⟨S64x21x2, .f32⟩
  | .hbm, ⟨3, _⟩ => ⟨S64x21x128x128, .f32⟩
  | .hbm, ⟨4, _⟩ => ⟨S64x21x128x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S64x21x1, .f32⟩
  | .hbm, ⟨10, _⟩ => ⟨S64x21, .f32⟩
  | .hbm, ⟨11, _⟩ => ⟨S_, .i32⟩
  | .hbm, ⟨12, _⟩ => ⟨S_, .i32⟩
  | .hbm, ⟨13, _⟩ => ⟨S_, .f32⟩
  | .hbm, ⟨14, _⟩ => ⟨S64x21, .f32⟩
  | .hbm, ⟨15, _⟩ => ⟨S64x21, .f32⟩
  | .hbm, ⟨16, _⟩ => ⟨S_, .f32⟩
  | .hbm, ⟨17, _⟩ => ⟨S64x21, .f32⟩
  | .hbm, ⟨18, _⟩ => ⟨S64x21, .f32⟩
  | .hbm, ⟨19, _⟩ => ⟨S64x21, .i32⟩
  | .hbm, ⟨20, _⟩ => ⟨S64x21x1, .f32⟩
  | .hbm, ⟨21, _⟩ => ⟨S64x21, .f32⟩
  | .hbm, ⟨22, _⟩ => ⟨S_, .i32⟩
  | .hbm, ⟨23, _⟩ => ⟨S_, .i32⟩
  | .hbm, ⟨24, _⟩ => ⟨S_, .f32⟩
  | .hbm, ⟨25, _⟩ => ⟨S64x21, .f32⟩
  | .hbm, ⟨26, _⟩ => ⟨S64x21, .f32⟩
  | .hbm, ⟨27, _⟩ => ⟨S_, .f32⟩
  | .hbm, ⟨28, _⟩ => ⟨S64x21, .f32⟩
  | .hbm, ⟨29, _⟩ => ⟨S64x21, .f32⟩
  | .hbm, ⟨30, _⟩ => ⟨S64x21, .i32⟩
  | .hbm, ⟨31, _⟩ => ⟨S64, .i32⟩
  | .hbm, ⟨32, _⟩ => ⟨S64x1, .i32⟩
  | .hbm, ⟨33, _⟩ => ⟨S21, .i32⟩
  | .hbm, ⟨34, _⟩ => ⟨S1x21, .i32⟩
  | .hbm, ⟨35, _⟩ => ⟨S_, .i32⟩
  | .hbm, ⟨36, _⟩ => ⟨S64x1, .i32⟩
  | .hbm, ⟨37, _⟩ => ⟨S64x1, .i1⟩
  | .hbm, ⟨38, _⟩ => ⟨S_, .i32⟩
  | .hbm, ⟨39, _⟩ => ⟨S64x1, .i32⟩
  | .hbm, ⟨40, _⟩ => ⟨S64x1, .i32⟩
  | .hbm, ⟨41, _⟩ => ⟨S64x1, .i32⟩
  | .hbm, ⟨42, _⟩ => ⟨S_, .i32⟩
  | .hbm, ⟨43, _⟩ => ⟨S1x21, .i32⟩
  | .hbm, ⟨44, _⟩ => ⟨S1x21, .i1⟩
  | .hbm, ⟨45, _⟩ => ⟨S_, .i32⟩
  | .hbm, ⟨46, _⟩ => ⟨S1x21, .i32⟩
  | .hbm, ⟨47, _⟩ => ⟨S1x21, .i32⟩
  | .hbm, ⟨48, _⟩ => ⟨S1x21, .i32⟩
  | .hbm, ⟨49, _⟩ => ⟨S_, .i32⟩
  | .hbm, ⟨50, _⟩ => ⟨S64x21, .i32⟩
  | .hbm, ⟨51, _⟩ => ⟨S64x21, .i1⟩
  | .hbm, ⟨52, _⟩ => ⟨S_, .i32⟩
  | .hbm, ⟨53, _⟩ => ⟨S64x21, .i32⟩
  | .hbm, ⟨54, _⟩ => ⟨S64x21, .i32⟩
  | .hbm, ⟨55, _⟩ => ⟨S64x21, .i32⟩
  | .hbm, ⟨56, _⟩ => ⟨S_, .i32⟩
  | .hbm, ⟨57, _⟩ => ⟨S64x21, .i32⟩
  | .hbm, ⟨58, _⟩ => ⟨S64x21, .i1⟩
  | .hbm, ⟨59, _⟩ => ⟨S_, .i32⟩
  | .hbm, ⟨60, _⟩ => ⟨S64x21, .i32⟩
  | .hbm, ⟨61, _⟩ => ⟨S64x21, .i32⟩
  | .hbm, ⟨62, _⟩ => ⟨S64x21, .i32⟩
  | .hbm, ⟨63, _⟩ => ⟨S64x21, .i32⟩
  | .hbm, ⟨64, _⟩ => ⟨S64x21, .i32⟩
  | .hbm, ⟨65, _⟩ => ⟨S64x21x1, .i32⟩
  | .hbm, ⟨66, _⟩ => ⟨S64x21x1, .i32⟩
  | .hbm, ⟨67, _⟩ => ⟨S64x21x1, .i32⟩
  | .hbm, ⟨68, _⟩ => ⟨S64x21x1, .i32⟩
  | .hbm, ⟨69, _⟩ => ⟨S64x21x4, .i32⟩
  | .hbm, ⟨70, _⟩ => ⟨S64x21, .f32⟩
  | .hbm, ⟨71, _⟩ => ⟨S_, .f32⟩
  | .hbm, ⟨72, _⟩ => ⟨S64x21, .f32⟩
  | .hbm, ⟨73, _⟩ => ⟨S64x21, .f32⟩
  | .hbm, ⟨74, _⟩ => ⟨S64x21, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | _, _ => ⟨S64x21x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_2 : Ref sig .tc := ⟨.hbm, 22, rfl⟩
abbrev main_c_3 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_c_5 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_c_6 : Ref sig .tc := ⟨.hbm, 42, rfl⟩
abbrev main_v21 : Ref sig .tc := ⟨.hbm, 43, rfl⟩
abbrev main_v22 : Ref sig .tc := ⟨.hbm, 44, rfl⟩
abbrev main_c_7 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_c_8 : Ref sig .tc := ⟨.hbm, 49, rfl⟩
abbrev main_v26 : Ref sig .tc := ⟨.hbm, 50, rfl⟩
abbrev main_v27 : Ref sig .tc := ⟨.hbm, 51, rfl⟩
abbrev main_c_9 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_10 : Ref sig .tc := ⟨.hbm, 56, rfl⟩
abbrev main_v31 : Ref sig .tc := ⟨.hbm, 57, rfl⟩
abbrev main_v32 : Ref sig .tc := ⟨.hbm, 58, rfl⟩
abbrev main_c_11 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_12 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_13 : Ref sig .tc := ⟨.hbm, 75, rfl⟩
abbrev main_v47 : Ref sig .tc := ⟨.hbm, 76, rfl⟩
abbrev main_cst_14 : Ref sig .tc := ⟨.hbm, 77, rfl⟩
abbrev main_v48 : Ref sig .tc := ⟨.hbm, 78, rfl⟩
abbrev main_cst_15 : Ref sig .tc := ⟨.hbm, 79, rfl⟩
abbrev main_v49 : Ref sig .tc := ⟨.hbm, 80, rfl⟩
abbrev main_cst_16 : Ref sig .tc := ⟨.hbm, 81, rfl⟩
abbrev main_v50 : Ref sig .tc := ⟨.hbm, 82, rfl⟩
abbrev main_v51 : Ref sig .tc := ⟨.hbm, 83, rfl⟩

abbrev nD : Nat := 1
abbrev τ : Topo := Topo.v7x

variable {F : FTy → Type} [FloatOps F]

class Facts₀ : Prop where
  reducesTo_S64x21x128x128_S_d0_1_2_3 : S64x21x128x128.ReducesTo [0, 1, 2, 3] S_
  h_S_ : 0 < S_.numel
  slices_S64x21x2_S64x21x1_0_0_0 : S64x21x2.Slices ![0, 0, 0] S64x21x1
  shapeCasts_S64x21x1_S64x21 : S64x21x1.ShapeCasts S64x21
  bcast_S_S64x21 : S_.BroadcastsInDim S64x21 (![] : Fin 0 → Fin S64x21.rank)
  slices_S64x21x2_S64x21x1_0_0_1 : S64x21x2.Slices ![0, 0, 1] S64x21x1
  bcast_S64_S64x1_0 : S64.BroadcastsInDim S64x1 (![0] : Fin 1 → Fin S64x1.rank)
  bcast_S21_S1x21_1 : S21.BroadcastsInDim S1x21 (![1] : Fin 1 → Fin S1x21.rank)
  bcast_S_S64x1 : S_.BroadcastsInDim S64x1 (![] : Fin 0 → Fin S64x1.rank)
  bcast_S_S1x21 : S_.BroadcastsInDim S1x21 (![] : Fin 0 → Fin S1x21.rank)
  bcast_S64x1_S64x21_0_1 : S64x1.BroadcastsInDim S64x21 (![0, 1] : Fin 2 → Fin S64x21.rank)
  bcast_S1x21_S64x21_0_1 : S1x21.BroadcastsInDim S64x21 (![0, 1] : Fin 2 → Fin S64x21.rank)
  bcast_S64x21_S64x21x1_0_1 : S64x21.BroadcastsInDim S64x21x1 (![0, 1] : Fin 2 → Fin S64x21x1.rank)
  concatenates_S64x21x1_S64x21x1_S64x21x1_S64x21x1_S64x21x4_d2 : Shape.Concatenates [S64x21x1, S64x21x1, S64x21x1, S64x21x1] S64x21x4 2
  reducesTo_S64x21_S_d0_1 : S64x21.ReducesTo [0, 1] S_
  gather_S64x21x128x128_S64x21x4_S64x21_n_0123_n_n_0123_2_1111_wf : GatherDims.WF S64x21x128x128 S64x21x4 S64x21 [] [0, 1, 2, 3] [] [0, 1, 2, 3] [] 2 ![1, 1, 1, 1]

variable [Facts₀]

def gather_S64x21x128x128_S64x21x4_S64x21_n_0123_n_n_0123_2_1111 : GatherDims S64x21x128x128 S64x21x4 S64x21 where
  offsetDims := []
  collapsedSliceDims := [0, 1, 2, 3]
  operandBatchingDims := []
  startIndicesBatchingDims := []
  startIndexMap := [0, 1, 2, 3]
  indexVectorDim := 2
  sliceSizes := ![1, 1, 1, 1]
  wf := gather_S64x21x128x128_S64x21x4_S64x21_n_0123_n_n_0123_2_1111_wf

class Facts : Prop extends Facts₀ where

variable [Facts]
-- ==== Proof.LibSums.lean ====
/-
  Finite sums over array indices, for any extents: a sum over a rank-4 index set is the fourfold sum over its
  coordinates; a sum against a factor that is one at one position and zero elsewhere is the term there (over the
  extended reals, where zero times an infinity is zero); an accumulation that adds the terms of a sequence one by one,
  started from zero, is the finite sum; and a `vector.multi_reduction <add>` over the FIRST axis of a rank-3 array, read
  at an index written by coordinates, is the `Fin`-indexed sum over that axis (the middle- and last-axis forms have the
  same shape).
-/
import Idealize.ShloMosaic.PureOps.Ideal
import Idealize.ShloMosaic.PureOps.Ideal.Laws
import Idealize.ShloMosaic.Lib.ValueIdx

noncomputable section

namespace Cert.LibSums

open Idealize.ShloMosaic Idealize.ShloMosaic.ValueIdx

/-! ## Sums over index sets and sequences -/

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- A sum against a factor that is one at `j` and zero elsewhere is the term at `j`: zero times any extended real,
    an infinity too, is zero. -/
theorem sum_mul_onehot {n : ℕ} (x : Fin n → EReal) (j : Fin n) :
    ∑ k : Fin n, x k * (if k = j then (1 : EReal) else 0) = x j := by
  simp [mul_ite, Finset.sum_ite_eq']

/-- An accumulation over the first `n + 1` terms of a sequence: the first term added to `z`, then each next term
    added to what is there. -/
def accum (z : EReal) (s : ℕ → EReal) : ℕ → EReal
  | 0 => z + s 0
  | n + 1 => accum z s n + s (n + 1)

/-- Started from zero it is the finite sum. -/
theorem accum_zero (s : ℕ → EReal) (n : ℕ) : accum 0 s n = ∑ k ∈ Finset.range (n + 1), s k := by
  induction n with
  | zero => simp [accum]
  | succ n ih => rw [accum, ih, Finset.sum_range_succ _ (n + 1)]

/-! ## A sum over the first axis of a rank-3 array -/

theorem lift_first3 {a b c : ℕ} (h : (⟨3, ![a, b, c]⟩ : Shape).Reduces [0] (⟨2, ![b, c]⟩ : Shape)) (q : Fin b) (k : Fin c)
    (p : Fin ((⟨3, ![a, b, c]⟩ : Shape).size 0)) : h.lift (ix2 q k) p = ix3 (⟨p.val, p.isLt⟩ : Fin a) q k := by
  funext ax; apply Fin.ext
  fin_cases ax <;> rfl

/-- The sum over the first axis of an `[a, b, c]` array, at `(q, k)`: the sum over `p` of the entries `(p, q, k)`. -/
theorem sum_first3_apply {a b c : ℕ} {φ : FTy} (src : FVec Ideal ⟨3, ![a, b, c]⟩ φ) (acc : BitVec φ.bits)
    (h : (⟨3, ![a, b, c]⟩ : Shape).Reduces [0] (⟨2, ![b, c]⟩ : Shape)) (hφ : FKind.Formats φ) (hacc : acc = FKind.add.neutral φ hφ)
    (q : Fin b) (k : Fin c) :
    multiReduction .add [0] ⟨2, ![b, c]⟩ src acc h hφ hacc (ix2 q k) = ∑ p : Fin a, src (ix3 p q k) :=
  (Ideal.multiReduction_add_single src acc h hφ hacc (ix2 q k)).trans
    (Finset.sum_congr rfl fun p _ => congrArg src (lift_first3 h q k p))

end Cert.LibSums

end
-- ==== Proof.Spec.lean ====
/-
  The two losses as plain functions of the argument arrays, over the extended reals.

  The squared-error total is the sum over every index of the 64 x 21 x 128 x 128 heatmaps of (pred - gt)^2; split by
  its coordinates it is the sum over the batch of one term per batch element. The keypoint loss picks, for batch
  element b and keypoint n, the heatmap entry whose row and column are the keypoint's two coordinates clamped into
  [0, 127] and truncated to an integer, and totals (1 - entry)^2.

  Also here: the one fact about the truncation (a value clamped into [0, 127] truncates to the word of a coordinate
  below 128).
-/
import Idealize.ShloMosaic.PureOps.Ideal
import Idealize.ShloMosaic.PureOps.Ideal.Laws
import Idealize.ShloMosaic.Lib.ValueIdx
import proofs.«143987_j27900107554853_2_alg».proof.Proof.LibSums

noncomputable section

namespace Cert.LossSpec

open Idealize.ShloMosaic Idealize.ShloMosaic.ValueIdx Cert.LibSums

/-! ## The clamp and the truncated coordinate -/

/-- The pattern of `127.0` denotes the real 127. -/
theorem ofBits_127 : Ideal.ofBits .f32 0x42FE0000#32 = ((127 : ℝ) : EReal) := by
  simp [Ideal.ofBits, Ideal.ieee, -EReal.coe_mul]; norm_num

/-- The pattern of `1.0` denotes 1. -/
theorem ofBits_one : Ideal.ofBits .f32 0x3F800000#32 = 1 := by
  simp [Ideal.ofBits, Ideal.ieee, -EReal.coe_mul]; norm_num

/-- A keypoint coordinate clamped into [0, 127]. -/
def clamp (x : EReal) : EReal :=
  min (Ideal.ofBits .f32 0x42FE0000#32) (max (Ideal.ofBits .f32 0x00000000#32) x)

/-- Whatever the coordinate — an infinity too — its clamp truncates to the word of a coordinate below 128. -/
theorem fptosi_clamp (x : EReal) : ∃ k : Fin 128, Ideal.fptosi 32 (clamp x) = BitVec.ofNat 32 k.val := by
  unfold clamp
  rw [ofBits_127, Ideal.ofBits_zero_f32]
  have h0 : (0 : EReal) ≤ min ((127 : ℝ) : EReal) (max 0 x) :=
    le_min (by exact_mod_cast (by norm_num : (0 : ℝ) ≤ 127)) (le_max_left _ _)
  have h1 : min ((127 : ℝ) : EReal) (max 0 x) ≤ ((127 : ℝ) : EReal) := min_le_left _ _
  generalize min ((127 : ℝ) : EReal) (max 0 x) = v at h0 h1
  induction v using EReal.rec with
  | bot => exact absurd h0 (by simp)
  | top => exact absurd h1 (by simp)
  | coe r =>
    have hr0 : 0 ≤ r := by exact_mod_cast h0
    have hr1 : r ≤ 127 := by exact_mod_cast h1
    have hf0 : 0 ≤ ⌊r⌋ := Int.floor_nonneg.mpr hr0
    have hf1 : ⌊r⌋ ≤ 127 := by
      have := Int.floor_le_floor hr1
      simpa using this
    refine ⟨⟨⌊r⌋.toNat, by omega⟩, ?_⟩
    unfold Ideal.fptosi
    rw [Ideal.toIntClamped_coe, if_pos hr0]
    have e : max (-((2 ^ (32 - 1) : ℕ) : ℤ)) (min (((2 ^ (32 - 1) : ℕ) : ℤ) - 1) ⌊r⌋) = ((⌊r⌋.toNat : ℕ) : ℤ) := by
      norm_num
      omega
    rw [e, BitVec.ofInt_natCast]

/-- The truncated coordinate of a keypoint coordinate: the one below 128 whose word the truncation gives. -/
def cell (x : EReal) : Fin 128 := Classical.choose (fptosi_clamp x)

theorem fptosi_clamp_eq (x : EReal) : Ideal.fptosi 32 (clamp x) = BitVec.ofNat 32 (cell x).val :=
  Classical.choose_spec (fptosi_clamp x)

/-! ## The losses -/

/-- The heatmaps' shape and the keypoints'. -/
abbrev SH : Shape := ⟨4, ![64, 21, 128, 128]⟩
abbrev SK : Shape := ⟨3, ![64, 21, 2]⟩

/-- The squared error at one heatmap entry. -/
def sq (p g : SH.Idx → EReal) (i : SH.Idx) : EReal := (p i - g i) * (p i - g i)

/-- One batch element's squared-error total. -/
def sseAt (p g : SH.Idx → EReal) (b : Fin 64) : EReal :=
  ∑ n : Fin 21, ∑ h : Fin 128, ∑ w : Fin 128, sq p g (ix4 b n h w)

/-- The squared-error total over everything is the sum of the batch elements' totals. -/
theorem sum_sq (p g : SH.Idx → EReal) : ∑ i : SH.Idx, sq p g i = ∑ b : Fin 64, sseAt p g b :=
  sum_idx4 _

/-- The heatmap entry keypoint `n` of batch element `b` picks: row from its second coordinate, column from its first. -/
def picked (p : SH.Idx → EReal) (kp : SK.Idx → EReal) (b : Fin 64) (n : Fin 21) : EReal :=
  p (ix4 b n (cell (kp (ix3 b n (1 : Fin 2)))) (cell (kp (ix3 b n (0 : Fin 2)))))

/-- Its loss term. -/
def miss (p : SH.Idx → EReal) (kp : SK.Idx → EReal) (b : Fin 64) (n : Fin 21) : EReal :=
  (Ideal.ofBits .f32 0x3F800000#32 - picked p kp b n) * (Ideal.ofBits .f32 0x3F800000#32 - picked p kp b n)

/-- One batch element's keypoint-loss total. -/
def pckAt (p : SH.Idx → EReal) (kp : SK.Idx → EReal) (b : Fin 64) : EReal := ∑ n : Fin 21, miss p kp b n

end Cert.LossSpec

end
-- ==== Proof.LibKeepdims.lean ====
/-
  Reductions over one axis of a rank-2 or rank-3 array, and the layout operations that put the reduced axis back as a
  unit axis and spread it again, read at an index written by coordinates, for any extents. A sum over an axis is the
  `Fin`-indexed sum over that axis's coordinates; a maximum is the fold of `max` over them from the accumulator's
  value.
-/
import Idealize.ShloMosaic.Lib.Pipeline.Value
import Idealize.ShloMosaic.Lib.ValueIdx
import Idealize.ShloMosaic.Lib.ValueLayout
import Idealize.ShloMosaic.PureOps.Ideal.Laws

namespace Cert.LibKeepdims

open Idealize.ShloMosaic Idealize.ShloMosaic.ValueIdx

variable {α : Type}

/-! ## Layout -/

/-- An `[a, c]` array cast to `[a, 1, c]` reads, at `(p, u, k)`, the operand at `(p, k)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (k : Fin c) :
    shapeCast ⟨3, ![a, 1, c]⟩ x h (ix3 p u k) = x (ix2 p k) :=
  shapeCast_apply x h _ _ (by
    have hu : u.val = 0 := by omega
    rw [Shape.rowMajor_val_two, Shape.rowMajor_val_three]
    show p.val * c + k.val = (p.val * 1 + u.val) * c + k.val
    rw [hu, Nat.mul_one, Nat.add_zero])

/-- An `[a, b]` array cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- An `[a, 1, c]` array broadcast to `[a, b, c]` reads, at `(p, q, k)`, the operand at `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- An `[a, b, 1]` array broadcast to `[a, b, c]` reads, at `(p, q, k)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-! ## The reduced index with the coordinate put back -/

theorem lift_mid3 {a b c : ℕ} (h : (⟨3, ![a, b, c]⟩ : Shape).Reduces [1] (⟨2, ![a, c]⟩ : Shape)) (p : Fin a) (k : Fin c)
    (q : Fin ((⟨3, ![a, b, c]⟩ : Shape).size 1)) : h.lift (ix2 p k) q = ix3 p (⟨q.val, q.isLt⟩ : Fin b) k := by
  funext ax; apply Fin.ext
  fin_cases ax <;> rfl

theorem lift_last3 {a b c : ℕ} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext ax; apply Fin.ext
  fin_cases ax <;> rfl

theorem lift_last2 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext ax; apply Fin.ext
  fin_cases ax <;> rfl

/-! ## Sums and maxima over one axis, at the ideal values -/

variable {φ : FTy}

/-- The sum over the middle axis of an `[a, b, c]` array, at `(p, k)`: the sum over `q` of the entries `(p, q, k)`. -/
theorem sum_mid3_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.add.neutral φ hφ)
    (p : Fin a) (k : Fin c) :
    multiReduction .add [1] ⟨2, ![a, c]⟩ src acc h hφ hacc (ix2 p k) = ∑ q : Fin b, src (ix3 p q k) :=
  (Ideal.multiReduction_add_single src acc h hφ hacc (ix2 p k)).trans
    (Finset.sum_congr rfl fun q _ => congrArg src (lift_mid3 h p k q))

/-- The sum over the last axis of an `[a, b, c]` array, at `(p, q)`: the sum over `k` of the entries `(p, q, k)`. -/
theorem sum_last3_apply {a b c : ℕ} (src : FVec Ideal ⟨3, ![a, b, c]⟩ φ) (acc : BitVec φ.bits)
    (h : (⟨3, ![a, b, c]⟩ : Shape).Reduces [2] (⟨2, ![a, b]⟩ : Shape)) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) :=
  (Ideal.multiReduction_add_single src acc h hφ hacc (ix2 p q)).trans
    (Finset.sum_congr rfl fun k _ => congrArg src (lift_last3 h p q k))

/-- The sum over the last axis of an `[a, b]` array, at `p`: the sum over `k` of the entries `(p, k)`. -/
theorem sum_last2_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_last2 h p k))

/-- The maximum over the middle axis of an `[a, b, c]` array, at `(p, k)`: the fold of `max`, from the accumulator's
    value, over the entries `(p, q, k)`. -/
theorem max_mid3_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.maximumf.neutral φ hφ)
    (p : Fin a) (k : Fin c) :
    multiReduction .maximumf [1] ⟨2, ![a, c]⟩ src acc h hφ hacc (ix2 p k)
      = (Finset.univ : Finset (Fin b)).fold max (Ideal.ofBits φ acc) (fun q : Fin b => src (ix3 p q k)) := by
  refine (Ideal.multiReduction_maximumf_single src acc h hφ hacc (ix2 p k)).trans ?_
  have hf : (src ∘ h.lift (ix2 p k)) = fun q : Fin b => src (ix3 p q k) := funext fun q => congrArg src (lift_mid3 h p k q)
  exact congrArg (fun f => Finset.fold max (Ideal.ofBits φ acc) f (Finset.univ : Finset (Fin b))) hf

/-- The maximum over the last axis of an `[a, b]` array, at `p`: the fold of `max`, from the accumulator's value, over
    the entries `(p, k)`. -/
theorem max_last2_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k : Fin b => src (ix2 p k)) := by
  refine (Ideal.multiReduction_maximumf_single src acc h hφ hacc (ix1 p)).trans ?_
  have hf : (src ∘ h.lift (ix1 p)) = fun k : Fin b => src (ix2 p k) := funext fun k => congrArg src (lift_last2 h p k)
  exact congrArg (fun f => Finset.fold max (Ideal.ofBits φ acc) f (Finset.univ : Finset (Fin b))) hf

/-! ## The pointwise transcendentals at an index -/

theorem exp_apply {s : Shape} (x : FVec Ideal s φ) (i : s.Idx) : exp x i = Ideal.exp (x i) := rfl
theorem log_apply {s : Shape} (x : FVec Ideal s φ) (i : s.Idx) : log x i = Ideal.log (x i) := rfl

end Cert.LibKeepdims
-- ==== Proof.LibColumn.lean ====
/-
  Layout operations on a COLUMN, read at an index: a vector `[a]` viewed as a one-column matrix `[a, 1]`, a
  one-column matrix broadcast along its rows to `[a, b]`, and a `[1, 1, a]` array viewed as one row `[1, a]`.
  (The row forms — `[1, b] → [a, b]`, a leading unit axis added or dropped — are in the library; these are their
  column counterparts, which every row reduction that keeps its axis meets.) Also: the comparison of two row
  indices below `2^32`, as 32-bit words, is the comparison of the indices.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a]` array cast to `[1, a]` reads, at `(u, i)`, the operand at `(0, 0, i)`. -/
theorem shapeCast_11a_1a_apply {a : ℕ} (x : (⟨3, ![1, 1, a]⟩ : Shape).Idx → α) (h : (⟨3, ![1, 1, a]⟩ : Shape).ShapeCasts ⟨2, ![1, a]⟩)
    (u : Fin 1) (i : Fin a) : shapeCast ⟨2, ![1, a]⟩ x h (ix2 u i) = x (ix3 (0 : Fin 1) (0 : Fin 1) i) :=
  shapeCast_apply x h _ _ (by
    have hu : u.val = 0 := by omega
    rw [Shape.rowMajor_val_three, Shape.rowMajor_val_two]
    show (0 * 1 + 0) * a + i.val = u.val * a + i.val
    rw [hu])

/-- Two indices below `2^32` are equal exactly when their 32-bit words are: the word of the comparison is `1` on
    the diagonal and `0` off it. -/
theorem cmpi_eq_ofNat {n : ℕ} (hn : n ≤ 2 ^ 32) (l k : Fin n) :
    IntOp.cmpi .eq (BitVec.ofNat 32 l.val) (BitVec.ofNat 32 k.val) = if l = k then 1#1 else 0#1 := by
  have hl : l.val < 2 ^ 32 := lt_of_lt_of_le l.isLt hn
  have hk : k.val < 2 ^ 32 := lt_of_lt_of_le k.isLt hn
  have hiff : BitVec.ofNat 32 l.val = BitVec.ofNat 32 k.val ↔ l = k := by
    constructor
    · intro h
      have h' := congrArg BitVec.toNat h
      rw [BitVec.toNat_ofNat, BitVec.toNat_ofNat, Nat.mod_eq_of_lt hl, Nat.mod_eq_of_lt hk] at h'
      exact Fin.ext h'
    · rintro rfl; rfl
  unfold IntOp.cmpi
  by_cases h : l = k
  · subst h; simp
  · have hne : ¬ BitVec.ofNat 32 l.val = BitVec.ofNat 32 k.val := fun e => h (hiff.mp e)
    have hb : (BitVec.ofNat 32 l.val == BitVec.ofNat 32 k.val) = false := beq_eq_false_iff_ne.mpr hne
    rw [if_neg h]
    show BitVec.ofBool (BitVec.ofNat 32 l.val == BitVec.ofNat 32 k.val) = 0#1
    rw [hb]
    rfl

end Cert.LibColumn
-- ==== Proof.LibFirstAxis.lean ====
/-
  A sum over the FIRST axis of a rank-2 array, read at an index written by coordinates, for any extents: at column `u`
  it is the `Fin`-indexed sum over the rows `k` of the entries `(k, u)`. (The last-axis form — a row sum — has the same
  shape with the roles of the axes exchanged; this is the column sum that follows it when a whole matrix is totalled in
  two steps.)
-/
import Idealize.ShloMosaic.Lib.Pipeline.Value
import Idealize.ShloMosaic.Lib.ValueIdx
import Idealize.ShloMosaic.PureOps.Ideal.Laws

namespace Cert.LibFirstAxis

open Idealize.ShloMosaic Idealize.ShloMosaic.ValueIdx

/-- The reduced index of a sum over the first axis of an `[a, b]` array, with the coordinate put back: `(k, u)`. -/
theorem lift_first2 {a b : ℕ} (h : (⟨2, ![a, b]⟩ : Shape).Reduces [0] (⟨1, ![b]⟩ : Shape)) (u : Fin b)
    (k : Fin ((⟨2, ![a, b]⟩ : Shape).size 0)) : h.lift (ix1 u) k = ix2 (⟨k.val, k.isLt⟩ : Fin a) u := by
  funext ax; apply Fin.ext
  fin_cases ax <;> rfl

/-- The sum over the first axis of an `[a, b]` array at the ideal values, at `u`: the sum over `k` of the entries `(k, u)`. -/
theorem sum_first2_apply {a b : ℕ} {φ : FTy} (src : FVec Ideal ⟨2, ![a, b]⟩ φ) (acc : BitVec φ.bits)
    (h : (⟨2, ![a, b]⟩ : Shape).Reduces [0] (⟨1, ![b]⟩ : Shape)) (hφ : FKind.Formats φ) (hacc : acc = FKind.add.neutral φ hφ)
    (u : Fin b) :
    multiReduction .add [0] ⟨1, ![b]⟩ src acc h hφ hacc (ix1 u) = ∑ k : Fin a, src (ix2 k u) :=
  (Ideal.multiReduction_add_single src acc h hφ hacc (ix1 u)).trans
    (Finset.sum_congr rfl fun k _ => congrArg src (lift_first2 h u k))

end Cert.LibFirstAxis
-- ==== Proof.Payload.lean ====
/-
  The kernel body's two stored values, read at an index over the extended reals.

  The squared-error store adds to what the accumulator holds the total of (pred - gt)^2 over the batch element's
  block: the block is reduced over its last axis, then the middle one, then the first, each reduced axis kept as a
  unit axis; the three nested reductions are the threefold sum over the block's coordinates.

  The keypoint store adds the total over the keypoints of (1 - picked)^2. The picked entry is computed as a sum
  against two one-hot factors: the comparison of an iota along the row (column) axis with the keypoint's truncated
  coordinate spread along that axis is one exactly on the keypoint's row (column), so the sum over rows of
  block * one-hot is the block's row at the keypoint, and the sum over columns of that * one-hot its entry.
-/
import proofs.«143987_j27900107554853_2_alg».proof.Proof.Gen.KernelIdeal.Skeleton
import proofs.«143987_j27900107554853_2_alg».proof.Proof.Spec
import proofs.«143987_j27900107554853_2_alg».proof.Proof.LibKeepdims
import proofs.«143987_j27900107554853_2_alg».proof.Proof.LibColumn
import proofs.«143987_j27900107554853_2_alg».proof.Proof.LibFirstAxis
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Idealize.ShloMosaic Idealize.ShloMosaic.ValueIdx Cert.KernelIdeal Cert.KernelIdeal.Gen
open Cert.LibKeepdims Cert.LibColumn Cert.LibFirstAxis Cert.LibSums Cert.LossSpec

/-! ## The squared-error store -/

/-- What the squared-error store writes: the accumulator's value plus the block's total of squared differences. -/
theorem pay5_apply (v3 v5 : Vec Ideal S1x21x128x128 .f32) (v15 : Vec Ideal S1x1 .f32) (u v : Fin 1) :
    k0_pay5 v3 v5 v15 (ix2 u v) = v15 (ix2 u v) + ∑ n : Fin 21, ∑ h : Fin 128, ∑ w : Fin 128,
      (v3 (ix4 (0 : Fin 1) n h w) - v5 (ix4 (0 : Fin 1) n h w)) * (v3 (ix4 (0 : Fin 1) n h w) - v5 (ix4 (0 : Fin 1) n h w)) := by
  unfold k0_pay5 k0_pay4
  refine (addf_apply _ _ _).trans ?_
  refine congrArg₂ (fun a b : EReal => a + b) (congrFun (shapeCast_self _ _) _) ?_
  refine (shapeCast_1ab_ab_apply _ _ u v).trans ?_
  refine (shapeCast_ab_1ab_apply _ _ (0 : Fin 1) u v).trans ?_
  refine (sum_first3_apply _ _ _ _ _ u v).trans ?_
  refine Finset.sum_congr rfl fun n _ => ?_
  refine (shapeCast_ab_ab1_apply _ _ n u v).trans ?_
  refine (sum_mid3_apply _ _ _ _ _ n u).trans ?_
  refine Finset.sum_congr rfl fun h _ => ?_
  refine (shapeCast_ab_ab1_apply _ _ n h u).trans ?_
  refine (sum_last3_apply _ _ _ _ _ n h).trans ?_
  refine Finset.sum_congr rfl fun w _ => ?_
  refine (mulf_apply _ _ _).trans ?_
  have e : ∀ x : Vec Ideal S1x21x128x128 .f32,
      shapeCast S21x128x128 x shapeCasts_S1x21x128x128_S21x128x128 (ix3 n h w) = x (ix4 (0 : Fin 1) n h w) :=
    fun x => shapeCast_1abc_abc_apply x _ n h w
  show (shapeCast S21x128x128 v3 shapeCasts_S1x21x128x128_S21x128x128 (ix3 n h w)
      - shapeCast S21x128x128 v5 shapeCasts_S1x21x128x128_S21x128x128 (ix3 n h w))
    * (shapeCast S21x128x128 v3 shapeCasts_S1x21x128x128_S21x128x128 (ix3 n h w)
      - shapeCast S21x128x128 v5 shapeCasts_S1x21x128x128_S21x128x128 (ix3 n h w)) = _
  rw [e v3, e v5]

/-! ## One-hot factors -/

/-- The iota along the second axis of a `[21, 128]` array holds, at `(n, k)`, the word of `k`. -/
theorem iota_row_apply (hI : S21x128.Iotas .tc 32 [1]) (n : Fin 21) (k : Fin 128) :
    iota .tc S21x128 32 [1] hI (ix2 n k) = BitVec.ofNat 32 k.val := by
  show BitVec.ofNat 32 (0 * 128 + k.val) = _
  rw [Nat.zero_mul, Nat.zero_add]

/-- The comparison of that iota with a per-row coordinate spread along the rows, as a float: one on the row's
    coordinate, zero elsewhere. -/
theorem onehot_apply (idx : IVec S21 32) (cell : Fin 21 → Fin 128) (hidx : ∀ n, idx (ix1 n) = BitVec.ofNat 32 (cell n).val)
    (hI : S21x128.Iotas .tc 32 [1]) (hc : S21.ShapeCasts S21x1) (hb : S21x1.Broadcasts S21x128) (hlt : 1 < 32)
    (n : Fin 21) (k : Fin 128) :
    (sitofp .f32 (extui 32 (cmpi .eq (iota .tc S21x128 32 [1] hI) (broadcastTo S21x128 (shapeCast S21x1 idx hc) hb)) hlt)
      : FVec Ideal S21x128 .f32) (ix2 n k) = if k = cell n then (1 : EReal) else 0 := by
  have e1 : broadcastTo S21x128 (shapeCast S21x1 idx hc) hb (ix2 n k) = BitVec.ofNat 32 (cell n).val :=
    (broadcastTo_a1_ab_apply _ hb n k).trans ((shapeCast_a_a1_apply idx hc n 0).trans (hidx n))
  have e2 : cmpi .eq (iota .tc S21x128 32 [1] hI) (broadcastTo S21x128 (shapeCast S21x1 idx hc) hb) (ix2 n k)
      = if k = cell n then 1#1 else 0#1 := by
    show IntOp.cmpi .eq (iota .tc S21x128 32 [1] hI (ix2 n k)) (broadcastTo S21x128 (shapeCast S21x1 idx hc) hb (ix2 n k)) = _
    rw [e1, iota_row_apply]
    exact cmpi_eq_ofNat (by norm_num) k (cell n)
  show ((((cmpi .eq (iota .tc S21x128 32 [1] hI) (broadcastTo S21x128 (shapeCast S21x1 idx hc) hb) (ix2 n k)).setWidth 32).toInt : ℝ) : EReal) = _
  rw [e2]
  have h1 : ((1#1 : BitVec 1).setWidth 32).toInt = 1 := by decide
  have h0 : ((0#1 : BitVec 1).setWidth 32).toInt = 0 := by decide
  split_ifs
  · rw [h1]; simp
  · rw [h0]; simp

/-! ## The keypoint store -/

/-- What the keypoint store writes: the accumulator's value plus the total over the keypoints of (1 - picked)^2, the
    picked entry of keypoint `n` the block's at the row and column its truncated coordinates name. -/
theorem pay1_apply (v4 : FVec Ideal S21x128x128 .f32) (v27 v31 v32 : FVec Ideal S21 .f32) (v60 : Vec Ideal S1x1 .f32)
    (col row : Fin 21 → Fin 128)
    (hcol : ∀ n, Ideal.fptosi 32 (v27 (ix1 n)) = BitVec.ofNat 32 (col n).val)
    (hrow : ∀ n, Ideal.fptosi 32 (min (v32 (ix1 n)) (v31 (ix1 n))) = BitVec.ofNat 32 (row n).val) (u v : Fin 1) :
    k0_pay1 v4 v27 v31 v32 v60 (ix2 u v) = v60 (ix2 u v) + ∑ n : Fin 21,
      (Ideal.ofBits .f32 0x3F800000#32 - v4 (ix3 n (row n) (col n)))
        * (Ideal.ofBits .f32 0x3F800000#32 - v4 (ix3 n (row n) (col n))) := by
  unfold k0_pay1
  refine (addf_apply _ _ _).trans ?_
  refine congrArg₂ (fun a b : EReal => a + b) (congrFun (shapeCast_self _ _) _) ?_
  refine (shapeCast_a_a1_apply _ _ u v).trans ?_
  refine (sum_first2_apply _ _ _ _ _ u).trans ?_
  refine Finset.sum_congr rfl fun n _ => ?_
  refine (mulf_apply _ _ _).trans ?_
  refine congrArg₂ (fun a b : EReal => a * b) ?_ ?_ <;>
  · refine (subf_apply _ _ _).trans ?_
    refine congrArg₂ (fun a b : EReal => a - b) rfl ?_
    refine (shapeCast_a_a1_apply _ _ n u).trans ?_
    refine (sum_last2_apply _ _ _ _ _ n).trans ?_
    refine (Finset.sum_congr rfl fun w _ => ?_).trans (sum_mul_onehot (fun w => v4 (ix3 n (row n) w)) (col n))
    refine (mulf_apply _ _ _).trans ?_
    refine congrArg₂ (fun a b : EReal => a * b) ?_ (onehot_apply _ col hcol _ _ _ _ n w)
    refine (sum_mid3_apply _ _ _ _ _ n w).trans ?_
    refine (Finset.sum_congr rfl fun h _ => ?_).trans (sum_mul_onehot (fun h => v4 (ix3 n h w)) (row n))
    refine (mulf_apply _ _ _).trans ?_
    refine congrArg₂ (fun a b : EReal => a * b) rfl ?_
    refine (broadcastTo_ab1_abc_apply _ _ n h w).trans ?_
    refine (shapeCast_ab_ab1_apply _ _ n h (0 : Fin 1)).trans ?_
    exact onehot_apply _ row hrow _ _ _ _ n h

/-! ## The clamped keypoint coordinates -/

/-- An `[a, 1]` array cast to `[a]` reads, at `i`, the operand at `(i, 0)`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- The first keypoint coordinate of keypoint `n`, clamped: the body's value before truncation. -/
theorem pay7_apply (v20 : Vec Ideal S1x21x2 .f32) (n : Fin 21) :
    k0_pay7 v20 (ix1 n) = clamp (v20 (ix3 (0 : Fin 1) n (0 : Fin 2))) := by
  unfold k0_pay7 k0_pay6 clamp
  refine (minimumf_apply _ _ _).trans ?_
  refine congrArg₂ min rfl ?_
  refine (maximumf_apply _ _ _).trans ?_
  refine congrArg₂ max rfl ?_
  refine (shapeCast_a1_a_apply _ _ n).trans ?_
  refine (extractStridedSlice_apply _ _ _ (ix2 n (0 : Fin 1)) (ix2 n (0 : Fin 2)) ?_).trans ?_
  · intro a
    match a with
    | ⟨0, _⟩ => exact (Nat.zero_add _).symm
    | ⟨1, _⟩ => rfl
  exact shapeCast_1ab_ab_apply _ _ n (0 : Fin 2)

/-- The second keypoint coordinate of keypoint `n`, clamped (its upper clamp is applied after the lower one's value
    is named, which changes nothing). -/
theorem pay89_apply (v20 : Vec Ideal S1x21x2 .f32) (n : Fin 21) :
    min (k0_pay9 (F := Ideal) (ix1 n)) (k0_pay8 v20 (ix1 n)) = clamp (v20 (ix3 (0 : Fin 1) n (1 : Fin 2))) := by
  unfold k0_pay9 k0_pay8 k0_pay6 clamp
  refine congrArg₂ min rfl ?_
  refine (maximumf_apply _ _ _).trans ?_
  refine congrArg₂ max rfl ?_
  refine (shapeCast_a1_a_apply _ _ n).trans ?_
  refine (extractStridedSlice_apply _ _ _ (ix2 n (0 : Fin 1)) (ix2 n (1 : Fin 2)) ?_).trans ?_
  · intro a
    match a with
    | ⟨0, _⟩ => exact (Nat.zero_add _).symm
    | ⟨1, _⟩ => rfl
  exact shapeCast_1ab_ab_apply _ _ n (1 : Fin 2)

/-- The block with its leading unit axis dropped reads the block at `(0, n, h, w)`. -/
theorem pay4_apply (v3 : Vec Ideal S1x21x128x128 .f32) (n : Fin 21) (h w : Fin 128) :
    k0_pay4 v3 (ix3 n h w) = v3 (ix4 (0 : Fin 1) n h w) := by
  unfold k0_pay4
  exact shapeCast_1abc_abc_apply v3 _ n h w

end Cert.KernelIdeal.Payload

end
-- ==== Proof.Cases.lean ====
/-
  What each of the body's two cases leaves in the two accumulators' staging buffers.

  At the first grid point the body first stores zero in both accumulators and then reads them back, so it leaves
  zero plus the block's squared-error total in the first and zero plus the block's keypoint total in the second; at
  every later point it leaves what the point before left, plus those totals. Each accumulator is covered by the
  body's last store to it, and that store's value is the corresponding stored value of the body read on the whole
  staging buffers.
-/
import proofs.«143987_j27900107554853_2_alg».proof.Proof.Gen.KernelIdeal.Frame
import Idealize.ShloMosaic.Lib.Pipeline.Value
import Idealize.ShloMosaic.Lib.Tactic

noncomputable section

namespace Cert.KernelIdeal.Cases

open Idealize.ShloMosaic Idealize.ShloMosaic.TcCoe Idealize.SL.Sem Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A later point leaves, in the first accumulator, what it held plus the block's squared-error total. -/
theorem out_B_3 (c : Dev nD) (i : grid0.Coords) (a1 : Memref sig .tc .vmem S1x21x128x128 .f32) (h1 : a1.IsWhole)
    (a2 : Memref sig .tc .vmem S1x21x128x128 .f32) (h2 : a2.IsWhole) (a3 : Memref sig .tc .vmem S1x21x2 .f32) (h3 : a3.IsWhole)
    (a4 : Memref sig .tc .vmem S1x1 .f32) (h4 : a4.IsWhole) (a5 : Memref sig .tc .vmem S1x1 .f32) (h5 : a5.IsWhole) (hc : ¬cond0_0 i)
    (x0 x1 : Vec F S1x21x128x128 .f32) (x2 : Vec F S1x21x2 .f32) (xo3 xo4 : Vec F S1x1 .f32) :
    out0_B_3 c i a1 h1 a2 h2 a3 h3 a4 h4 a5 h5 hc x0 x1 x2 xo3 xo4 = k0_pay5 x0 x1 xo3 := by
  unfold out0_B_3
  rw [View.read_writes_eq_canon _ _ _ (cover0_B_3 c i a1 h1 a2 h2 a3 h3 a4 h4 a5 h5 hc x0 x1 x2 xo3 xo4)]
  unfold kernelRun0_B
  dsimp only
  rw [View.canon_unit_zero hz2]
  simp only [View.readAt_eq_ld, h1.read_unread, h2.read_unread, h3.read_unread, h4.read_unread, h5.read_unread,
    View.ld_unit_zero (S := S1x21x128x128) hz4, View.ld_unit_zero (S := S1x21x2) hz3, View.ld_unit_zero (S := S1x1) hz2]

/-- A later point leaves, in the second accumulator, what it held plus the block's keypoint total. -/
theorem out_B_4 (c : Dev nD) (i : grid0.Coords) (a1 : Memref sig .tc .vmem S1x21x128x128 .f32) (h1 : a1.IsWhole)
    (a2 : Memref sig .tc .vmem S1x21x128x128 .f32) (h2 : a2.IsWhole) (a3 : Memref sig .tc .vmem S1x21x2 .f32) (h3 : a3.IsWhole)
    (a4 : Memref sig .tc .vmem S1x1 .f32) (h4 : a4.IsWhole) (a5 : Memref sig .tc .vmem S1x1 .f32) (h5 : a5.IsWhole) (hc : ¬cond0_0 i)
    (x0 x1 : Vec F S1x21x128x128 .f32) (x2 : Vec F S1x21x2 .f32) (xo3 xo4 : Vec F S1x1 .f32) :
    out0_B_4 c i a1 h1 a2 h2 a3 h3 a4 h4 a5 h5 hc x0 x1 x2 xo3 xo4
      = k0_pay1 (k0_pay4 x0) (k0_pay7 x2) (k0_pay8 x2) (k0_pay9 (F := F)) xo4 := by
  unfold out0_B_4
  rw [View.read_writes_eq_canon _ _ _ (cover0_B_4 c i a1 h1 a2 h2 a3 h3 a4 h4 a5 h5 hc x0 x1 x2 xo3 xo4)]
  unfold kernelRun0_B
  dsimp only
  sl_unfold_words
  rw [View.canon_unit_zero hz2]
  simp only [View.readAt_eq_ld, h1.read_unread, h2.read_unread, h3.read_unread, h4.read_unread, h5.read_unread,
    View.ld_unit_zero (S := S1x21x128x128) hz4, View.ld_unit_zero (S := S1x21x2) hz3, View.ld_unit_zero (S := S1x1) hz2]

/-- The first point leaves, in the first accumulator, zero plus the block's squared-error total. -/
theorem out_A_3 (c : Dev nD) (i : grid0.Coords) (a1 : Memref sig .tc .vmem S1x21x128x128 .f32) (h1 : a1.IsWhole)
    (a2 : Memref sig .tc .vmem S1x21x128x128 .f32) (h2 : a2.IsWhole) (a3 : Memref sig .tc .vmem S1x21x2 .f32) (h3 : a3.IsWhole)
    (a4 : Memref sig .tc .vmem S1x1 .f32) (h4 : a4.IsWhole) (a5 : Memref sig .tc .vmem S1x1 .f32) (h5 : a5.IsWhole) (hc : cond0_0 i)
    (x0 x1 : Vec F S1x21x128x128 .f32) (x2 : Vec F S1x21x2 .f32) :
    out0_A_3 c i a1 h1 a2 h2 a3 h3 a4 h4 a5 h5 hc x0 x1 x2 = k0_pay5 x0 x1 (k0_pay2 (F := F)) := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_cons_unit_zero (S := S1x1) hz2, View.readCov_unit_zero (S := S1x1) _ hz2]
  simp only [View.readAt_eq_ld, h1.read_unread, h2.read_unread, h3.read_unread, h4.read_unread, h5.read_unread,
    View.ld_unit_zero (S := S1x21x128x128) hz4, View.ld_unit_zero (S := S1x21x2) hz3, View.ld_unit_zero (S := S1x1) hz2]

/-- The first point leaves, in the second accumulator, zero plus the block's keypoint total. -/
theorem out_A_4 (c : Dev nD) (i : grid0.Coords) (a1 : Memref sig .tc .vmem S1x21x128x128 .f32) (h1 : a1.IsWhole)
    (a2 : Memref sig .tc .vmem S1x21x128x128 .f32) (h2 : a2.IsWhole) (a3 : Memref sig .tc .vmem S1x21x2 .f32) (h3 : a3.IsWhole)
    (a4 : Memref sig .tc .vmem S1x1 .f32) (h4 : a4.IsWhole) (a5 : Memref sig .tc .vmem S1x1 .f32) (h5 : a5.IsWhole) (hc : cond0_0 i)
    (x0 x1 : Vec F S1x21x128x128 .f32) (x2 : Vec F S1x21x2 .f32) :
    out0_A_4 c i a1 h1 a2 h2 a3 h3 a4 h4 a5 h5 hc x0 x1 x2
      = k0_pay1 (k0_pay4 x0) (k0_pay7 x2) (k0_pay8 x2) (k0_pay9 (F := F)) (k0_pay3 (F := F)) := by
  unfold out0_A_4
  rw [View.read_writes_eq_canon _ _ _ (cover0_A_4 c i a1 h1 a2 h2 a3 h3 a4 h4 a5 h5 hc x0 x1 x2)]
  unfold kernelRun0_A
  dsimp only
  sl_unfold_words
  rw [View.canon_cons_unit_zero (S := S1x1) hz2, View.readCov_unit_zero (S := S1x1) _ hz2]
  simp only [View.readAt_eq_ld, h1.read_unread, h2.read_unread, h3.read_unread, h4.read_unread, h5.read_unread,
    View.ld_unit_zero (S := S1x21x128x128) hz4, View.ld_unit_zero (S := S1x21x2) hz3, View.ld_unit_zero (S := S1x1) hz2]

end Cert.KernelIdeal.Cases

end
-- ==== Proof.Blocks.lean ====
/-
  The input windows' blocks as reads of the argument arrays: at grid point t the heatmap windows hold batch element
  t of their arrays — entry (0, n, h, w) of the block is entry (t, n, h, w) of the array — and the keypoint window
  holds the keypoints of batch element t.
-/
import proofs.«143987_j27900107554853_2_alg».proof.Proof.Gen.KernelIdeal.Frame
import Idealize.ShloMosaic.Lib.Pipeline.Value
import Idealize.ShloMosaic.Lib.ValueIdx

noncomputable section

namespace Cert.KernelIdeal.Blocks

open Idealize.ShloMosaic Idealize.ShloMosaic.TcCoe Idealize.SL.Sem Idealize.ShloMosaic.ValueIdx Cert.KernelIdeal Cert.KernelIdeal.Gen

variable {F : FTy → Type} [FloatOps F]
variable (m : (ℓ : Loc nD τ sig) → Buf (Elt F) ℓ)

/-- A grid point as a batch coordinate. -/
def batch (t : Fin cfg0.N) : Fin 64 := ⟨t.val, lt_of_lt_of_eq t.isLt (show cfg0.N = 64 from N_0)⟩

/-- The heatmap windows' block index at point t is (t, 0, 0, 0); the keypoint window's (t, 0, 0). -/
theorem idx_facts : ∀ t : Fin cfg0.N,
    (win0_0.index t 0 = t.val ∧ win0_0.index t 1 = 0 ∧ win0_0.index t 2 = 0 ∧ win0_0.index t 3 = 0)
    ∧ (win0_1.index t 0 = t.val ∧ win0_1.index t 1 = 0 ∧ win0_1.index t 2 = 0 ∧ win0_1.index t 3 = 0)
    ∧ (win0_2.index t 0 = t.val ∧ win0_2.index t 1 = 0 ∧ win0_2.index t 2 = 0) :=
  (by decide +kernel : ∀ t : Fin grid0.N,
    (win0_0.index t 0 = t.val ∧ win0_0.index t 1 = 0 ∧ win0_0.index t 2 = 0 ∧ win0_0.index t 3 = 0)
    ∧ (win0_1.index t 0 = t.val ∧ win0_1.index t 1 = 0 ∧ win0_1.index t 2 = 0 ∧ win0_1.index t 3 = 0)
    ∧ (win0_2.index t 0 = t.val ∧ win0_2.index t 1 = 0 ∧ win0_2.index t 2 = 0))

/-- The first heatmap window's block at point t, at (0, n, h, w): the array at (t, n, h, w). -/
theorem iblk0_apply (c : Dev nD) (t : Fin cfg0.N) (n : Fin 21) (h w : Fin 128) :
    (iblk m c 0 t : Vec F S1x21x128x128 .f32) (ix4 (0 : Fin 1) n h w) = V m c main_arg0 (ix4 (batch t) n h w) := by
  have hi := (idx_facts t).1
  unfold iblk
  rw [View.read_apply]
  show V m c main_arg0 _ = V m c main_arg0 _
  congr 1
  funext a
  apply Fin.ext
  match a with
  | ⟨0, _⟩ => show win0_0.index t 0 * 1 + 1 * 0 = t.val; rw [hi.1]; omega
  | ⟨1, _⟩ => show win0_0.index t 1 * 21 + 1 * n.val = n.val; rw [hi.2.1]; omega
  | ⟨2, _⟩ => show win0_0.index t 2 * 128 + 1 * h.val = h.val; rw [hi.2.2.1]; omega
  | ⟨3, _⟩ => show win0_0.index t 3 * 128 + 1 * w.val = w.val; rw [hi.2.2.2]; omega

/-- The second heatmap window's block likewise. -/
theorem iblk1_apply (c : Dev nD) (t : Fin cfg0.N) (n : Fin 21) (h w : Fin 128) :
    (iblk m c 1 t : Vec F S1x21x128x128 .f32) (ix4 (0 : Fin 1) n h w) = V m c main_arg1 (ix4 (batch t) n h w) := by
  have hi := (idx_facts t).2.1
  unfold iblk
  rw [View.read_apply]
  show V m c main_arg1 _ = V m c main_arg1 _
  congr 1
  funext a
  apply Fin.ext
  match a with
  | ⟨0, _⟩ => show win0_1.index t 0 * 1 + 1 * 0 = t.val; rw [hi.1]; omega
  | ⟨1, _⟩ => show win0_1.index t 1 * 21 + 1 * n.val = n.val; rw [hi.2.1]; omega
  | ⟨2, _⟩ => show win0_1.index t 2 * 128 + 1 * h.val = h.val; rw [hi.2.2.1]; omega
  | ⟨3, _⟩ => show win0_1.index t 3 * 128 + 1 * w.val = w.val; rw [hi.2.2.2]; omega

/-- The keypoint window's block at point t, at (0, n, k): the keypoints at (t, n, k). -/
theorem iblk2_apply (c : Dev nD) (t : Fin cfg0.N) (n : Fin 21) (k : Fin 2) :
    (iblk m c 2 t : Vec F S1x21x2 .f32) (ix3 (0 : Fin 1) n k) = V m c main_arg2 (ix3 (batch t) n k) := by
  have hi := (idx_facts t).2.2
  unfold iblk
  rw [View.read_apply]
  show V m c main_arg2 _ = V m c main_arg2 _
  congr 1
  funext a
  apply Fin.ext
  match a with
  | ⟨0, _⟩ => show win0_2.index t 0 * 1 + 1 * 0 = t.val; rw [hi.1]; omega
  | ⟨1, _⟩ => show win0_2.index t 1 * 21 + 1 * n.val = n.val; rw [hi.2.1]; omega
  | ⟨2, _⟩ => show win0_2.index t 2 * 2 + 1 * k.val = k.val; rw [hi.2.2]; omega

end Cert.KernelIdeal.Blocks

end
-- ==== Proof.Accum.lean ====
/-
  The two accumulators, point by point.

  After grid point n the first accumulator's staging buffer holds the squared-error totals of batch elements 0 … n
  accumulated in order from zero, and the second the keypoint totals likewise: the first point stores zero and adds
  its block's totals, every later point adds its block's totals to what the point before left. A block's total is
  the batch element's total of the whole array, because the block at point t is batch element t.
-/
import proofs.«143987_j27900107554853_2_alg».proof.Proof.Gen.KernelIdeal.Frame
import proofs.«143987_j27900107554853_2_alg».proof.Proof.Spec
import proofs.«143987_j27900107554853_2_alg».proof.Proof.Payload
import proofs.«143987_j27900107554853_2_alg».proof.Proof.Cases
import proofs.«143987_j27900107554853_2_alg».proof.Proof.Blocks
import Idealize.ShloMosaic.Lib.Pipeline.Value
import Idealize.ShloMosaic.Lib.ValueIdx

noncomputable section

namespace Cert.KernelIdeal.Accum

open Idealize.ShloMosaic Idealize.ShloMosaic.TcCoe Idealize.SL.Sem Idealize.ShloMosaic.ValueIdx Cert.KernelIdeal Cert.KernelIdeal.Gen
open Cert.LibSums Cert.LossSpec Cert.KernelIdeal.Blocks Cert.KernelIdeal.Cases Cert.KernelIdeal.Payload

variable (m : (ℓ : Loc nD τ sig) → Buf (Elt Ideal) ℓ)

/-- The argument arrays as the region finds them, as plain functions of an index. -/
abbrev pred (c : Dev nD) : SH.Idx → EReal := V m c main_arg0
abbrev gt (c : Dev nD) : SH.Idx → EReal := V m c main_arg1
abbrev kps (c : Dev nD) : SK.Idx → EReal := V m c main_arg2

/-- The zero both accumulators start from. -/
abbrev Z : EReal := Ideal.ofBits .f32 0x00000000#32

/-- Batch element b's squared-error total, as a sequence over the naturals (zero past the batch). -/
def sseN (c : Dev nD) (b : ℕ) : EReal := if h : b < 64 then sseAt (pred m c) (gt m c) ⟨b, h⟩ else 0
/-- Batch element b's keypoint total likewise. -/
def pckN (c : Dev nD) (b : ℕ) : EReal := if h : b < 64 then pckAt (pred m c) (kps m c) ⟨b, h⟩ else 0

/-- The squared-error store at point t adds batch element t's total. -/
theorem block_sse (c : Dev nD) (t : Fin cfg0.N) (acc : Vec Ideal S1x1 .f32) (j : S1x1.Idx) :
    k0_pay5 (iblk m c 0 t) (iblk m c 1 t) acc j = acc j + sseN m c t.val := by
  obtain ⟨u, v, rfl⟩ : ∃ (u v : Fin 1), j = ix2 u v := ⟨j 0, j 1, eq_ix2 j⟩
  have hb : t.val < 64 := lt_of_lt_of_eq t.isLt (show cfg0.N = 64 from N_0)
  refine (pay5_apply (iblk m c 0 t) (iblk m c 1 t) acc u v).trans ?_
  refine congrArg (fun z : EReal => acc (ix2 u v) + z) ?_
  unfold sseN
  rw [dif_pos hb]
  unfold sseAt Cert.LossSpec.sq
  refine Finset.sum_congr rfl fun n _ => Finset.sum_congr rfl fun h _ => Finset.sum_congr rfl fun w _ => ?_
  rw [iblk0_apply m c t n h w, iblk1_apply m c t n h w]
  rfl

/-- The keypoint store at point t adds batch element t's keypoint total. -/
theorem block_pck (c : Dev nD) (t : Fin cfg0.N) (acc : Vec Ideal S1x1 .f32) (j : S1x1.Idx) :
    k0_pay1 (k0_pay4 (iblk m c 0 t)) (k0_pay7 (iblk m c 2 t)) (k0_pay8 (iblk m c 2 t)) (k0_pay9 (F := Ideal)) acc j
      = acc j + pckN m c t.val := by
  obtain ⟨u, v, rfl⟩ : ∃ (u v : Fin 1), j = ix2 u v := ⟨j 0, j 1, eq_ix2 j⟩
  have hb : t.val < 64 := lt_of_lt_of_eq t.isLt (show cfg0.N = 64 from N_0)
  refine (pay1_apply (k0_pay4 (iblk m c 0 t)) (k0_pay7 (iblk m c 2 t)) (k0_pay8 (iblk m c 2 t)) (k0_pay9 (F := Ideal)) acc
    (fun n => cell (kps m c (ix3 (batch t) n (0 : Fin 2)))) (fun n => cell (kps m c (ix3 (batch t) n (1 : Fin 2))))
    (fun n => (congrArg (Ideal.fptosi 32) ((pay7_apply (iblk m c 2 t) n).trans
      (congrArg clamp (iblk2_apply m c t n (0 : Fin 2))))).trans (fptosi_clamp_eq _))
    (fun n => (congrArg (Ideal.fptosi 32) ((pay89_apply (iblk m c 2 t) n).trans
      (congrArg clamp (iblk2_apply m c t n (1 : Fin 2))))).trans (fptosi_clamp_eq _)) u v).trans ?_
  refine congrArg (fun z : EReal => acc (ix2 u v) + z) ?_
  unfold pckN
  rw [dif_pos hb]
  unfold pckAt miss picked
  refine Finset.sum_congr rfl fun n _ => ?_
  rw [pay4_apply (iblk m c 0 t) n _ _, iblk0_apply m c t n _ _]
  rfl

/-- The first point: zero plus its block's totals. -/
theorem at_first (c : Dev nD) (t : Fin cfg0.N) (h0 : t.val % 64 = 0) :
    outsAt0 (F := Ideal) m c t.val t.isLt
      = (fun j => k0_pay2 (F := Ideal) j + sseN m c t.val, fun j => k0_pay3 (F := Ideal) j + pckN m c t.val) := by
  rw [outsAt0_A m c t h0]
  refine congrArg₂ Prod.mk ?_ ?_
  · refine (out_A_3 (F := Ideal) c (grid0.coords t) (ms0_0 t) (hs0_0 t) (ms0_1 t) (hs0_1 t) (ms0_2 t) (hs0_2 t) (ms0_3 t) (hs0_3 t)
      (ms0_4 t) (hs0_4 t) ((hcond0_0 t).mpr h0) (iblk m c 0 t) (iblk m c 1 t) (iblk m c 2 t)).trans ?_
    exact funext fun j => block_sse m c t (k0_pay2 (F := Ideal)) j
  · refine (out_A_4 (F := Ideal) c (grid0.coords t) (ms0_0 t) (hs0_0 t) (ms0_1 t) (hs0_1 t) (ms0_2 t) (hs0_2 t) (ms0_3 t) (hs0_3 t)
      (ms0_4 t) (hs0_4 t) ((hcond0_0 t).mpr h0) (iblk m c 0 t) (iblk m c 1 t) (iblk m c 2 t)).trans ?_
    exact funext fun j => block_pck m c t (k0_pay3 (F := Ideal)) j

/-- A later point: what the point before left plus its block's totals. -/
theorem at_later (c : Dev nD) (t : Fin cfg0.N) (h0 : ¬t.val % 64 = 0) :
    outsAt0 (F := Ideal) m c t.val t.isLt
      = (fun j => (outsAt0 (F := Ideal) m c (t.val - 1) (Nat.lt_of_le_of_lt (Nat.sub_le _ _) t.isLt)).1 j + sseN m c t.val,
         fun j => (outsAt0 (F := Ideal) m c (t.val - 1) (Nat.lt_of_le_of_lt (Nat.sub_le _ _) t.isLt)).2 j + pckN m c t.val) := by
  rw [outsAt0_B m c t h0]
  refine congrArg₂ Prod.mk ?_ ?_
  · refine (out_B_3 (F := Ideal) c (grid0.coords t) (ms0_0 t) (hs0_0 t) (ms0_1 t) (hs0_1 t) (ms0_2 t) (hs0_2 t) (ms0_3 t) (hs0_3 t)
      (ms0_4 t) (hs0_4 t) (fun h => h0 ((hcond0_0 t).mp h)) (iblk m c 0 t) (iblk m c 1 t) (iblk m c 2 t)
      (outsAt0 (F := Ideal) m c (t.val - 1) (Nat.lt_of_le_of_lt (Nat.sub_le _ _) t.isLt)).1
      (outsAt0 (F := Ideal) m c (t.val - 1) (Nat.lt_of_le_of_lt (Nat.sub_le _ _) t.isLt)).2).trans ?_
    exact funext fun j => block_sse m c t _ j
  · refine (out_B_4 (F := Ideal) c (grid0.coords t) (ms0_0 t) (hs0_0 t) (ms0_1 t) (hs0_1 t) (ms0_2 t) (hs0_2 t) (ms0_3 t) (hs0_3 t)
      (ms0_4 t) (hs0_4 t) (fun h => h0 ((hcond0_0 t).mp h)) (iblk m c 0 t) (iblk m c 1 t) (iblk m c 2 t)
      (outsAt0 (F := Ideal) m c (t.val - 1) (Nat.lt_of_le_of_lt (Nat.sub_le _ _) t.isLt)).1
      (outsAt0 (F := Ideal) m c (t.val - 1) (Nat.lt_of_le_of_lt (Nat.sub_le _ _) t.isLt)).2).trans ?_
    exact funext fun j => block_pck m c t _ j

/-- After point n both accumulators hold their totals over batch elements 0 … n, accumulated in order from zero. -/
theorem outsAt_eq (c : Dev nD) : ∀ (n : ℕ) (hn : n < cfg0.N), outsAt0 (F := Ideal) m c n hn
    = ((fun _ => accum Z (sseN m c) n), (fun _ => accum Z (pckN m c) n))
  | 0, hn => (at_first m c ⟨0, hn⟩ rfl).trans rfl
  | n + 1, hn => by
    have hN : cfg0.N = 64 := N_0
    have hB : ¬(⟨n + 1, hn⟩ : Fin cfg0.N).val % 64 = 0 := by dsimp only; omega
    refine (at_later m c ⟨n + 1, hn⟩ hB).trans ?_
    show ((fun j => (outsAt0 (F := Ideal) m c n _).1 j + sseN m c (n + 1)),
      (fun j => (outsAt0 (F := Ideal) m c n _).2 j + pckN m c (n + 1))) = _
    rw [outsAt_eq c n]
    rfl

end Cert.KernelIdeal.Accum

end
-- ==== Proof.Results.lean ====
/-
  The three results from the two totals: the mean squared error is the squared-error total divided by the number of
  heatmap entries, the keypoint loss the keypoint total divided by the number of keypoints, and the total loss the
  sum of the two, each first multiplied by its weight 1. Both programs end with exactly these operations on their
  totals, so they are stated once, on scalars.
-/
import Idealize.ShloMosaic.PureOps.Ideal
import Idealize.ShloMosaic.PureOps.Vector

noncomputable section

namespace Cert.LossSpec

open Idealize.ShloMosaic

/-- The mean squared error from the squared-error total. -/
def mseOf (s : EReal) : (⟨0, ![]⟩ : Shape).Idx → EReal :=
  Host.divf (F := Ideal) (φ := .f32) (fun _ => s) (constant (F := Ideal) ⟨0, ![]⟩ .f32 0x4BA80000#32)

/-- The keypoint loss from the keypoint total. -/
def pckOf (q : EReal) : (⟨0, ![]⟩ : Shape).Idx → EReal :=
  Host.divf (F := Ideal) (φ := .f32) (fun _ => q) (constant (F := Ideal) ⟨0, ![]⟩ .f32 0x44A80000#32)

/-- The total loss from both. -/
def totOf (s q : EReal) : (⟨0, ![]⟩ : Shape).Idx → EReal :=
  addf (F := Ideal) (φ := .f32) (mulf (F := Ideal) (φ := .f32) (constant (F := Ideal) ⟨0, ![]⟩ .f32 0x3F800000#32) (mseOf s))
    (mulf (F := Ideal) (φ := .f32) (constant (F := Ideal) ⟨0, ![]⟩ .f32 0x3F800000#32) (pckOf q))

end Cert.LossSpec

end
-- ==== Proof.Final.lean ====
/-
  The kernel's run, read: its three results as functions of the argument arrays.

  Both accumulators are written back once, after the last grid point, and their one block is the whole one-element
  array, so each result array of the region ends holding its accumulator's final value: the total over all 64 batch
  elements. The lines after the region divide the two totals by the element counts and add the quotients.
-/
import proofs.«143987_j27900107554853_2_alg».proof.Proof.Gen.KernelIdeal.Frame
import proofs.«143987_j27900107554853_2_alg».proof.Proof.Spec
import proofs.«143987_j27900107554853_2_alg».proof.Proof.Accum
import proofs.«143987_j27900107554853_2_alg».proof.Proof.Results
import Idealize.ShloMosaic.Lib.Pipeline.Value
import Idealize.ShloMosaic.Lib.StableHlo.Run
import Idealize.ShloMosaic.Lib.Tactic

noncomputable section

namespace Cert.KernelIdeal.Final

open Idealize.ShloMosaic Idealize.ShloMosaic.TcCoe Idealize.SL.Sem Idealize.ShloMosaic.ValueIdx Cert.KernelIdeal Cert.KernelIdeal.Gen
open Idealize.ShloMosaic.Pipeline (Dat)
open Cert.LibSums Cert.LossSpec Cert.KernelIdeal.Accum

variable (m : (ℓ : Loc nD τ sig) → Buf (Elt Ideal) ℓ) (ρ : Dev nD → PrngReg)

/-- The last grid point. -/
def tLast : Fin cfg0.N := ⟨63, by rw [show cfg0.N = 64 from N_0]; decide⟩

/-- The accumulators' final values: the totals over batch elements 0 … 63, accumulated in order from zero. -/
def sseTot (c : Dev nD) : EReal := accum Z (sseN m c) 63
def pckTot (c : Dev nD) : EReal := accum Z (pckN m c) 63

/-- The one write-back of the first accumulator, after the last point, writes its final value. -/
theorem flushed3_eq (c : Dev nD) (t : Fin cfg0.N) (hf : (cfg0.win 3).flush t = true) :
    (dats m 0 c).flushed 3 t = ((cfg0.win 3).blk t).view.read (Elt Ideal) (fun _ => sseTot m c) := by
  have hN : cfg0.N = 64 := N_0
  have h63 : t.val = 63 := by have := (flush0_3 t).mp hf; have := t.isLt; omega
  show (cfg0.win 3).cut (grid0.coords t) ((dats m 0 c).after 3 t) = _
  rw [after0_3, outsAt_eq m c t.val t.isLt]
  funext y
  rw [View.read_apply]
  show accum Z (sseN m c) t.val = sseTot m c
  rw [h63]
  rfl

/-- The one write-back of the second accumulator likewise. -/
theorem flushed4_eq (c : Dev nD) (t : Fin cfg0.N) (hf : (cfg0.win 4).flush t = true) :
    (dats m 0 c).flushed 4 t = ((cfg0.win 4).blk t).view.read (Elt Ideal) (fun _ => pckTot m c) := by
  have hN : cfg0.N = 64 := N_0
  have h63 : t.val = 63 := by have := (flush0_4 t).mp hf; have := t.isLt; omega
  show (cfg0.win 4).cut (grid0.coords t) ((dats m 0 c).after 4 t) = _
  rw [after0_4, outsAt_eq m c t.val t.isLt]
  funext y
  rw [View.read_apply]
  show accum Z (pckN m c) t.val = pckTot m c
  rw [h63]
  rfl

/-- So the first result array of the region ends holding the squared-error total (its one block is the array). -/
theorem final3 (c : Dev nD) : (dats m 0 c).arrAt 3 cfg0.N = fun _ => sseTot m c :=
  (dats m 0 c).arrAt_eq_of_cover 3 (fun _ => sseTot m c) (flushed3_eq m c) fun i =>
    ⟨tLast, (flush0_3 tLast).mpr rfl, by
      show i ∈ ((View.whole main_v0_0).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_3.index tLast 0 * win0_3.size 0 ≤ (i 0 : Nat) ∧ (i 0 : Nat) < win0_3.index tLast 0 * win0_3.size 0 + win0_3.xsize (grid0.coords tLast) 0
        rw [show win0_3.index tLast 0 * win0_3.size 0 = 0 from by decide +kernel, show win0_3.xsize (grid0.coords tLast) 0 = 1 from by decide +kernel]; omega
      | ⟨1, _⟩ =>
        show win0_3.index tLast 1 * win0_3.size 1 ≤ (i 1 : Nat) ∧ (i 1 : Nat) < win0_3.index tLast 1 * win0_3.size 1 + win0_3.xsize (grid0.coords tLast) 1
        rw [show win0_3.index tLast 1 * win0_3.size 1 = 0 from by decide +kernel, show win0_3.xsize (grid0.coords tLast) 1 = 1 from by decide +kernel]; omega⟩

/-- And the second the keypoint total. -/
theorem final4 (c : Dev nD) : (dats m 0 c).arrAt 4 cfg0.N = fun _ => pckTot m c :=
  (dats m 0 c).arrAt_eq_of_cover 4 (fun _ => pckTot m c) (flushed4_eq m c) fun i =>
    ⟨tLast, (flush0_4 tLast).mpr rfl, by
      show i ∈ ((View.whole main_v0_1).slice (win0_4.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_4.index tLast 0 * win0_4.size 0 ≤ (i 0 : Nat) ∧ (i 0 : Nat) < win0_4.index tLast 0 * win0_4.size 0 + win0_4.xsize (grid0.coords tLast) 0
        rw [show win0_4.index tLast 0 * win0_4.size 0 = 0 from by decide +kernel, show win0_4.xsize (grid0.coords tLast) 0 = 1 from by decide +kernel]; omega
      | ⟨1, _⟩ =>
        show win0_4.index tLast 1 * win0_4.size 1 ≤ (i 1 : Nat) ∧ (i 1 : Nat) < win0_4.index tLast 1 * win0_4.size 1 + win0_4.xsize (grid0.coords tLast) 1
        rw [show win0_4.index tLast 1 * win0_4.size 1 = 0 from by decide +kernel, show win0_4.xsize (grid0.coords tLast) 1 = 1 from by decide +kernel]; omega⟩

/-! ## The lines after the region -/

/-- The region's first result array, as the lines after the region find it. -/
theorem exit3 (c : Dev nD) : Pipeline.withArrays (cfgs 0).spec c (V0 m c) (fun w => (dats m 0 c).arrAt w (cfgs 0).N)
    (Proc.devRef .tc main_v0_0) = fun _ => sseTot m c :=
  (Pipeline.withArrays_arr spec0 launch0.win.arr_inj c _ _ 3).trans (final3 m c)

/-- The second. -/
theorem exit4 (c : Dev nD) : Pipeline.withArrays (cfgs 0).spec c (V0 m c) (fun w => (dats m 0 c).arrAt w (cfgs 0).N)
    (Proc.devRef .tc main_v0_1) = fun _ => pckTot m c :=
  (Pipeline.withArrays_arr spec0 launch0.win.arr_inj c _ _ 4).trans (final4 m c)

/-- The total loss. -/
theorem tail7 (c : Dev nD) : Pipeline.afterTail₀ cfgs (dats m) 0 (V0 m) [hostOps1] c main_v7 = totOf (sseTot m c) (pckTot m c) := by
  unfold Pipeline.afterTail₀
  show StableHlo.after hostOps1 _ (Proc.devRef .tc main_v7) = _
  after_results
  rw [exit3 m c, exit4 m c]
  rfl

/-- The mean squared error. -/
theorem tail2 (c : Dev nD) : Pipeline.afterTail₀ cfgs (dats m) 0 (V0 m) [hostOps1] c main_v2 = mseOf (sseTot m c) := by
  unfold Pipeline.afterTail₀
  show StableHlo.after hostOps1 _ (Proc.devRef .tc main_v2) = _
  after_results
  rw [exit3 m c]
  rfl

/-- The keypoint loss. -/
theorem tail4 (c : Dev nD) : Pipeline.afterTail₀ cfgs (dats m) 0 (V0 m) [hostOps1] c main_v4 = pckOf (pckTot m c) := by
  unfold Pipeline.afterTail₀
  show StableHlo.after hostOps1 _ (Proc.devRef .tc main_v4) = _
  after_results
  rw [exit4 m c]
  rfl

/-! ## The run -/

/-- Every weakly fair execution of the kernel's program terminates with its three results at the losses of the
    totals, the argument arrays unchanged. -/
theorem run : θ_run defs (onTc (τ := τ) (main (F := Ideal))) ⟨m, fun _ => 0, ρ⟩ fun r => ∀ c : Dev nD,
      r.2.mem ((c.tc : Thread nD τ).loc main_v7) = totOf (sseTot m c) (pckTot m c)
      ∧ r.2.mem ((c.tc : Thread nD τ).loc main_v2) = mseOf (sseTot m c)
      ∧ r.2.mem ((c.tc : Thread nD τ).loc main_v4) = pckOf (pckTot m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v7 (Pipeline.mem_restRefs_of main_v7 rfl (by intro w; fin_cases w <;> decide))).trans (tail7 m c),
     ((h c).2 main_v2 (Pipeline.mem_restRefs_of main_v2 rfl (by intro w; fin_cases w <;> decide))).trans (tail2 m c),
     ((h c).2 main_v4 (Pipeline.mem_restRefs_of main_v4 rfl (by intro w; fin_cases w <;> decide))).trans (tail4 m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).1 2).trans (((dats m 0 c).arrAt_in 2 rfl _).trans ((A_eq m c 2).trans (V_main_arg2 m c)))⟩)
    (run_main m ρ)

end Cert.KernelIdeal.Final

end
-- ==== Proof.Totals.lean ====
/-
  The accumulators' final values as plain sums: an accumulation from zero over batch elements 0 … 63, each term
  added to what is there, is the sum over the batch of the batch elements' totals.
-/
import proofs.«143987_j27900107554853_2_alg».proof.Proof.Final

noncomputable section

namespace Cert.KernelIdeal.Final

open Idealize.ShloMosaic Idealize.ShloMosaic.TcCoe Idealize.SL.Sem Cert.KernelIdeal Cert.KernelIdeal.Gen
open Cert.LibSums Cert.LossSpec Cert.KernelIdeal.Accum

variable (m : (ℓ : Loc nD τ sig) → Buf (Elt Ideal) ℓ)

/-- The squared-error accumulator ends at the sum over the batch of the batch elements' squared-error totals. -/
theorem sseTot_eq (c : Dev nD) : sseTot m c = ∑ b : Fin 64, sseAt (pred m c) (gt m c) b := by
  unfold sseTot
  rw [show (Z : EReal) = 0 from Ideal.ofBits_zero_f32, accum_zero]
  show ∑ k ∈ Finset.range 64, sseN m c k = _
  rw [Finset.sum_range]
  refine Finset.sum_congr rfl fun b _ => ?_
  unfold sseN
  rw [dif_pos b.isLt]

/-- The keypoint accumulator ends at the sum over the batch of the batch elements' keypoint totals. -/
theorem pckTot_eq (c : Dev nD) : pckTot m c = ∑ b : Fin 64, pckAt (pred m c) (kps m c) b := by
  unfold pckTot
  rw [show (Z : EReal) = 0 from Ideal.ofBits_zero_f32, accum_zero]
  show ∑ k ∈ Finset.range 64, pckN m c k = _
  rw [Finset.sum_range]
  refine Finset.sum_congr rfl fun b _ => ?_
  unfold pckN
  rw [dif_pos b.isLt]

end Cert.KernelIdeal.Final

end
-- ==== Proof.RefSide.lean ====
/-
  The reference's two totals, read over the extended reals.

  Its squared-error total is the host's sum over every heatmap index of (pred - gt)^2, which by coordinates is the
  sum of the batch elements' totals. Its keypoint total sums (1 - gathered)^2 over the 64 x 21 keypoints, where the
  gather reads the heatmaps at the index (b, n, y, x) assembled from two iotas and the two clamped, truncated
  keypoint coordinates: each component is the word of a coordinate below its extent, so the sign test that would
  wrap a negative index leaves it alone and the gather's own clamp does nothing — the gathered entry is the picked
  one.
-/
import proofs.«143987_j27900107554853_2_alg».proof.Proof.Gen.ReferenceIdeal.Read
import proofs.«143987_j27900107554853_2_alg».proof.Proof.Spec
import proofs.«143987_j27900107554853_2_alg».proof.Proof.Results
import Idealize.ShloMosaic.Lib.Pipeline.Value
import Idealize.ShloMosaic.Lib.ValueIdx
import Idealize.ShloMosaic.PureOps.Ideal.Laws

noncomputable section

namespace Cert.ReferenceIdeal.RefSide

open Idealize.ShloMosaic Idealize.ShloMosaic.ValueIdx Cert.ReferenceIdeal Cert.ReferenceIdeal.Read Cert.LossSpec

/-! ## Words of small coordinates -/

/-- The word of a coordinate below 128 is not negative as a signed integer, -/
theorem slt_zero : ∀ k : Fin 128, IntOp.cmpi .slt (BitVec.ofNat 32 k.val) 0#32 = 0#1 := by decide +kernel
/-- and read back as a signed integer it is the coordinate. -/
theorem toNat_word : ∀ k : Fin 128, (BitVec.ofNat 32 k.val).toInt.toNat = k.val := by decide +kernel

/-- So the wrap of a negative index (add the extent when the sign test says negative) leaves it alone. -/
theorem wrap_id (k : ℕ) (hk : k < 128) (sz : BitVec 32) :
    Scalar.select (IntOp.cmpi .slt (BitVec.ofNat 32 k) 0#32) (IntOp.addi (BitVec.ofNat 32 k) sz) (BitVec.ofNat 32 k)
      = BitVec.ofNat 32 k := by
  rw [slt_zero ⟨k, hk⟩]
  exact select_zero _ _

/-! ## The clamp as the reference spells it -/

theorem clamp_eq (x : EReal) : clamp x = min ((127 : ℝ) : EReal) (max 0 x) := by
  unfold clamp
  rw [ofBits_127, Ideal.ofBits_zero_f32]

theorem sitofp_127 : FloatOps.sitofp (F := Ideal) .f32 (127#32 : BitVec 32) = ((127 : ℝ) : EReal) := by
  show (((127#32 : BitVec 32).toInt : ℝ) : EReal) = _
  have : (127#32 : BitVec 32).toInt = 127 := by decide
  rw [this]; norm_num

theorem sitofp_0 : FloatOps.sitofp (F := Ideal) .f32 (0#32 : BitVec 32) = (0 : EReal) := by
  show (((0#32 : BitVec 32).toInt : ℝ) : EReal) = _
  have : (0#32 : BitVec 32).toInt = 0 := by decide
  rw [this]; simp

variable (x0 x1 : (⟨S64x21x128x128, .f32⟩ : BufTy).Contents (Elt Ideal)) (x2 : (⟨S64x21x2, .f32⟩ : BufTy).Contents (Elt Ideal))

/-! ## The keypoint coordinates -/

theorem idx_first (b : Fin 64) (n : Fin 21) : idx_main_v4 (idx_main_v5 (ix2 b n)) = ix3 b n (0 : Fin 2) := by
  funext a; apply Fin.ext
  match a with
  | ⟨0, _⟩ => show (b.val * 21 + n.val) / 21 = b.val; omega
  | ⟨1, _⟩ => show (b.val * 21 + n.val) / 1 % 21 = n.val; omega
  | ⟨2, _⟩ => rfl

theorem idx_second (b : Fin 64) (n : Fin 21) : idx_main_v8 (idx_main_v9 (ix2 b n)) = ix3 b n (1 : Fin 2) := by
  funext a; apply Fin.ext
  match a with
  | ⟨0, _⟩ => show (b.val * 21 + n.val) / 21 = b.val; omega
  | ⟨1, _⟩ => show (b.val * 21 + n.val) / 1 % 21 = n.val; omega
  | ⟨2, _⟩ => rfl

/-- The first keypoint coordinate, clamped. -/
theorem v6_apply (b : Fin 64) (n : Fin 21) : val_main_v6 (F := Ideal) x2 (ix2 b n) = clamp (x2 (ix3 b n (0 : Fin 2))) := by
  rw [val_main_v6_apply, val_main_call0_v4_apply, val_main_call0_v3_apply, val_main_c_1_apply, val_main_call0_v2_apply,
    val_main_call0_v1_apply, val_main_call0_v0_apply, val_main_c_apply, val_main_v5_apply, val_main_v4_apply, idx_first,
    clamp_eq, sitofp_127, sitofp_0]
  rfl

/-- The second keypoint coordinate, clamped. -/
theorem v10_apply (b : Fin 64) (n : Fin 21) : val_main_v10 (F := Ideal) x2 (ix2 b n) = clamp (x2 (ix3 b n (1 : Fin 2))) := by
  rw [val_main_v10_apply, val_main_call1_v4_apply, val_main_call1_v3_apply, val_main_c_3_apply, val_main_call1_v2_apply,
    val_main_call1_v1_apply, val_main_call1_v0_apply, val_main_c_2_apply, val_main_v9_apply, val_main_v8_apply, idx_second,
    clamp_eq, sitofp_127, sitofp_0]
  rfl

/-- Truncated, the first is the word of its cell, -/
theorem v7_apply (b : Fin 64) (n : Fin 21) :
    val_main_v7 (F := Ideal) x2 (ix2 b n) = BitVec.ofNat 32 (cell (x2 (ix3 b n (0 : Fin 2)))).val := by
  rw [val_main_v7_apply, v6_apply]
  exact fptosi_clamp_eq _

/-- and the second of its. -/
theorem v11_apply (b : Fin 64) (n : Fin 21) :
    val_main_v11 (F := Ideal) x2 (ix2 b n) = BitVec.ofNat 32 (cell (x2 (ix3 b n (1 : Fin 2)))).val := by
  rw [val_main_v11_apply, v10_apply]
  exact fptosi_clamp_eq _

/-! ## The four components of the gather's index -/

/-- The column component: the first coordinate's cell. -/
theorem v35_apply (b : Fin 64) (n : Fin 21) :
    val_main_v35 (F := Ideal) x2 (ix2 b n) = BitVec.ofNat 32 (cell (x2 (ix3 b n (0 : Fin 2)))).val := by
  rw [val_main_v35_apply, val_main_v32_apply, val_main_v34_apply, val_main_v31_apply, val_main_c_10_apply, val_main_v33_apply,
    val_main_c_11_apply, v7_apply]
  exact wrap_id _ (cell _).isLt _

/-- The row component: the second coordinate's cell. -/
theorem v30_apply (b : Fin 64) (n : Fin 21) :
    val_main_v30 (F := Ideal) x2 (ix2 b n) = BitVec.ofNat 32 (cell (x2 (ix3 b n (1 : Fin 2)))).val := by
  rw [val_main_v30_apply, val_main_v27_apply, val_main_v29_apply, val_main_v26_apply, val_main_c_8_apply, val_main_v28_apply,
    val_main_c_9_apply, v11_apply]
  exact wrap_id _ (cell _).isLt _

/-- The batch component. -/
theorem v36_apply (b : Fin 64) (n : Fin 21) : val_main_v36 (F := Ideal) (ix2 b n) = BitVec.ofNat 32 b.val := by
  rw [val_main_v36_apply, val_main_v20_apply, val_main_v17_apply, val_main_v19_apply, val_main_v13_apply, val_main_v12_apply,
    val_main_v16_apply, val_main_c_4_apply, val_main_v18_apply, val_main_c_5_apply]
  exact wrap_id b.val (by have := b.isLt; omega) _

/-- The keypoint component. -/
theorem v37_apply (b : Fin 64) (n : Fin 21) : val_main_v37 (F := Ideal) (ix2 b n) = BitVec.ofNat 32 n.val := by
  rw [val_main_v37_apply, val_main_v25_apply, val_main_v22_apply, val_main_v24_apply, val_main_v15_apply, val_main_v14_apply,
    val_main_v21_apply, val_main_c_6_apply, val_main_v23_apply, val_main_c_7_apply]
  exact wrap_id n.val (by have := n.isLt; omega) _

/-- A join of four one-wide pieces along the last axis reads, at (b, n, k), piece k at (b, n, 0). -/
theorem piece_apply (xs : List ((s : Shape) × (s.Idx → BitVec 32))) (h : Shape.Concatenates (xs.map (·.1)) S64x21x4 2)
    (b : Fin 64) (n : Fin 21) (k : ℕ) (hk : k < xs.length) (hk4 : k < 4) (x₁ : S64x21x1.Idx → BitVec 32)
    (hxk : xs[k] = ⟨S64x21x1, x₁⟩)
    (hpre : (((xs.take k).map (·.1)).map fun s => if h : s.rank = S64x21x4.rank then s.size ((2 : Fin S64x21x4.rank).cast h.symm) else 0).sum = k) :
    concatenate S64x21x4 2 xs h (ix3 b n (⟨k, hk4⟩ : Fin 4)) = x₁ (ix3 b n (0 : Fin 1)) :=
  concatenate_apply_piece 2 xs h (ix3 b n (⟨k, hk4⟩ : Fin 4)) k hk S64x21x1 x₁ hxk rfl k hpre (ix3 b n (0 : Fin 1))
    (fun a ha => match a with
      | ⟨0, _⟩ => rfl
      | ⟨1, _⟩ => rfl
      | ⟨2, _⟩ => absurd rfl ha)
    rfl

/-- The four pieces of the index array. -/
abbrev pieces : List ((s : Shape) × (s.Idx → BitVec 32)) :=
  [⟨S64x21x1, val_main_v38 (F := Ideal)⟩, ⟨S64x21x1, val_main_v39 (F := Ideal)⟩, ⟨S64x21x1, val_main_v40 (F := Ideal) x2⟩,
    ⟨S64x21x1, val_main_v41 (F := Ideal) x2⟩]

theorem v42_0 (b : Fin 64) (n : Fin 21) : val_main_v42 (F := Ideal) x2 (ix3 b n (0 : Fin 4)) = BitVec.ofNat 32 b.val := by
  unfold val_main_v42
  refine (piece_apply (pieces x2) Facts₀.concatenates_S64x21x1_S64x21x1_S64x21x1_S64x21x1_S64x21x4_d2 b n 0 (show (0 : ℕ) < 4 by decide) (by decide) _ rfl rfl).trans ?_
  rw [val_main_v38_apply]
  exact v36_apply b n
theorem v42_1 (b : Fin 64) (n : Fin 21) : val_main_v42 (F := Ideal) x2 (ix3 b n (1 : Fin 4)) = BitVec.ofNat 32 n.val := by
  unfold val_main_v42
  refine (piece_apply (pieces x2) Facts₀.concatenates_S64x21x1_S64x21x1_S64x21x1_S64x21x1_S64x21x4_d2 b n 1 (show (1 : ℕ) < 4 by decide) (by decide) _ rfl rfl).trans ?_
  rw [val_main_v39_apply]
  exact v37_apply b n
theorem v42_2 (b : Fin 64) (n : Fin 21) :
    val_main_v42 (F := Ideal) x2 (ix3 b n (2 : Fin 4)) = BitVec.ofNat 32 (cell (x2 (ix3 b n (1 : Fin 2)))).val := by
  unfold val_main_v42
  refine (piece_apply (pieces x2) Facts₀.concatenates_S64x21x1_S64x21x1_S64x21x1_S64x21x1_S64x21x4_d2 b n 2 (show (2 : ℕ) < 4 by decide) (by decide) _ rfl rfl).trans ?_
  rw [val_main_v40_apply]
  exact v30_apply x2 b n
theorem v42_3 (b : Fin 64) (n : Fin 21) :
    val_main_v42 (F := Ideal) x2 (ix3 b n (3 : Fin 4)) = BitVec.ofNat 32 (cell (x2 (ix3 b n (0 : Fin 2)))).val := by
  unfold val_main_v42
  refine (piece_apply (pieces x2) Facts₀.concatenates_S64x21x1_S64x21x1_S64x21x1_S64x21x1_S64x21x4_d2 b n 3 (show (3 : ℕ) < 4 by decide) (by decide) _ rfl rfl).trans ?_
  rw [val_main_v41_apply]
  exact v35_apply x2 b n

/-! ## The gather -/

/-- A gather of single entries of a rank-4 array at a four-component index whose components are words of coordinates
    inside the array reads the entry at those coordinates. -/
theorem gather4_apply {α : Type} (x : S64x21x128x128.Idx → α) (idx : IVec S64x21x4 32) (b : Fin 64) (n : Fin 21) (r cl : Fin 128)
    (h0 : (idx (ix3 b n (0 : Fin 4))).toInt.toNat = b.val) (h1 : (idx (ix3 b n (1 : Fin 4))).toInt.toNat = n.val)
    (h2 : (idx (ix3 b n (2 : Fin 4))).toInt.toNat = r.val) (h3 : (idx (ix3 b n (3 : Fin 4))).toInt.toNat = cl.val) :
    Host.gather gather_S64x21x128x128_S64x21x4_S64x21_n_0123_n_n_0123_2_1111 x idx (ix2 b n) = x (ix4 b n r cl) := by
  unfold Host.gather
  refine congrArg x ?_
  funext a
  apply Fin.ext
  show gather_S64x21x128x128_S64x21x4_S64x21_n_0123_n_n_0123_2_1111.start (ix2 b n) idx a
    + gather_S64x21x128x128_S64x21x4_S64x21_n_0123_n_n_0123_2_1111.batchCoord (ix2 b n) a
    + gather_S64x21x128x128_S64x21x4_S64x21_n_0123_n_n_0123_2_1111.offCoord (ix2 b n) a = _
  rw [GatherDims.batchCoord_eq_zero _ _ _ List.not_mem_nil]
  have hb := b.isLt
  have hn := n.isLt
  have hr := r.isLt
  have hc := cl.isLt
  have hcol : ∀ a : Fin 4, a ∈ gather_S64x21x128x128_S64x21x4_S64x21_n_0123_n_n_0123_2_1111.collapsedSliceDims := by decide
  have hsim : ∀ a : Fin 4, a ∈ gather_S64x21x128x128_S64x21x4_S64x21_n_0123_n_n_0123_2_1111.startIndexMap := by decide
  rw [GatherDims.offCoord_eq_zero _ _ _ (fun h => ((GatherDims.mem_sKept _ _).mp h).1 (hcol a))]
  unfold GatherDims.start
  rw [dif_pos (hsim a)]
  match a with
  | ⟨0, _⟩ =>
    have hsi : gather_S64x21x128x128_S64x21x4_S64x21_n_0123_n_n_0123_2_1111.siIdx (ix2 b n) ⟨0, by decide⟩ = ix3 b n (0 : Fin 4) := by
      funext d; apply Fin.ext
      match d with
      | ⟨0, _⟩ => rfl
      | ⟨1, _⟩ => rfl
      | ⟨2, _⟩ => rfl
    show min (idx (gather_S64x21x128x128_S64x21x4_S64x21_n_0123_n_n_0123_2_1111.siIdx (ix2 b n) ⟨0, _⟩)).toInt.toNat (64 - 1) + 0 + 0 = b.val
    rw [hsi, h0]; omega
  | ⟨1, _⟩ =>
    have hsi : gather_S64x21x128x128_S64x21x4_S64x21_n_0123_n_n_0123_2_1111.siIdx (ix2 b n) ⟨1, by decide⟩ = ix3 b n (1 : Fin 4) := by
      funext d; apply Fin.ext
      match d with
      | ⟨0, _⟩ => rfl
      | ⟨1, _⟩ => rfl
      | ⟨2, _⟩ => rfl
    show min (idx (gather_S64x21x128x128_S64x21x4_S64x21_n_0123_n_n_0123_2_1111.siIdx (ix2 b n) ⟨1, _⟩)).toInt.toNat (21 - 1) + 0 + 0 = n.val
    rw [hsi, h1]; omega
  | ⟨2, _⟩ =>
    have hsi : gather_S64x21x128x128_S64x21x4_S64x21_n_0123_n_n_0123_2_1111.siIdx (ix2 b n) ⟨2, by decide⟩ = ix3 b n (2 : Fin 4) := by
      funext d; apply Fin.ext
      match d with
      | ⟨0, _⟩ => rfl
      | ⟨1, _⟩ => rfl
      | ⟨2, _⟩ => rfl
    show min (idx (gather_S64x21x128x128_S64x21x4_S64x21_n_0123_n_n_0123_2_1111.siIdx (ix2 b n) ⟨2, _⟩)).toInt.toNat (128 - 1) + 0 + 0 = r.val
    rw [hsi, h2]; omega
  | ⟨3, _⟩ =>
    have hsi : gather_S64x21x128x128_S64x21x4_S64x21_n_0123_n_n_0123_2_1111.siIdx (ix2 b n) ⟨3, by decide⟩ = ix3 b n (3 : Fin 4) := by
      funext d; apply Fin.ext
      match d with
      | ⟨0, _⟩ => rfl
      | ⟨1, _⟩ => rfl
      | ⟨2, _⟩ => rfl
    show min (idx (gather_S64x21x128x128_S64x21x4_S64x21_n_0123_n_n_0123_2_1111.siIdx (ix2 b n) ⟨3, _⟩)).toInt.toNat (128 - 1) + 0 + 0 = cl.val
    rw [hsi, h3]; omega

/-- The gathered entry of keypoint n of batch element b is the picked one. -/
theorem v43_apply (b : Fin 64) (n : Fin 21) : val_main_v43 (F := Ideal) x0 x2 (ix2 b n) = picked x0 x2 b n := by
  unfold val_main_v43 picked
  exact gather4_apply x0 (val_main_v42 (F := Ideal) x2) b n _ _
    (by rw [v42_0]; exact toNat_word ⟨b.val, by have := b.isLt; omega⟩)
    (by rw [v42_1]; exact toNat_word ⟨n.val, by have := n.isLt; omega⟩)
    (by rw [v42_2]; exact toNat_word _)
    (by rw [v42_3]; exact toNat_word _)

/-! ## The two totals -/

/-- The reference's squared-error total. -/
theorem v2_eq (i : S_.Idx) :
    val_main_v2 (F := Ideal) x0 x1 i = Ideal.ofBits .f32 0x00000000#32 + ∑ b : Fin 64, sseAt x0 x1 b := by
  rw [val_main_v2_apply]
  refine congrArg₂ (fun a b : EReal => a + b) rfl ?_
  exact sum_sq x0 x1

/-- The reference's keypoint total. -/
theorem v47_eq (i : S_.Idx) :
    val_main_v47 (F := Ideal) x0 x2 i = Ideal.ofBits .f32 0x00000000#32 + ∑ b : Fin 64, pckAt x0 x2 b := by
  rw [val_main_v47_apply]
  refine congrArg₂ (fun a b : EReal => a + b) rfl ?_
  refine (sum_idx2 _).trans ?_
  refine Finset.sum_congr rfl fun b _ => Finset.sum_congr rfl fun n _ => ?_
  rw [val_main_v46_apply, val_main_v45_apply, val_main_v44_apply, val_main_cst_12_apply, v43_apply]
  rfl

/-! ## The three results -/

/-- The reference's mean squared error: the loss of its squared-error total. -/
theorem v3_eq : val_main_v3 (F := Ideal) x0 x1 = mseOf (∑ b : Fin 64, sseAt x0 x1 b) := by
  have e : val_main_v2 (F := Ideal) x0 x1 = fun _ => ∑ b : Fin 64, sseAt x0 x1 b :=
    funext fun i => by rw [v2_eq, Ideal.ofBits_zero_f32, zero_add]
  unfold val_main_v3 mseOf
  rw [e]
  rfl

/-- The reference's keypoint loss: the loss of its keypoint total. -/
theorem v48_eq : val_main_v48 (F := Ideal) x0 x2 = pckOf (∑ b : Fin 64, pckAt x0 x2 b) := by
  have e : val_main_v47 (F := Ideal) x0 x2 = fun _ => ∑ b : Fin 64, pckAt x0 x2 b :=
    funext fun i => by rw [v47_eq, Ideal.ofBits_zero_f32, zero_add]
  unfold val_main_v48 pckOf
  rw [e]
  rfl

/-- The reference's total loss. -/
theorem v51_eq : val_main_v51 (F := Ideal) x0 x1 x2
    = totOf (∑ b : Fin 64, sseAt x0 x1 b) (∑ b : Fin 64, pckAt x0 x2 b) := by
  unfold val_main_v51 val_main_v49 val_main_v50 totOf
  rw [v3_eq, v48_eq]
  rfl

end Cert.ReferenceIdeal.RefSide

end
-- ==== Proof.lean ====
/-
  The certificate's claim: the combined heatmap loss kernel against its reference.

  Both programs compute three numbers from the heatmaps pred, gt (64 x 21 x 128 x 128) and the keypoints
  (64 x 21 x 2): the mean over all entries of (pred - gt)^2; the mean over the 64 x 21 keypoints of (1 - p)^2, p the
  entry of pred at the keypoint's two coordinates clamped into [0, 127] and truncated; and their sum.

  The kernel walks the batch: at each of its 64 grid points it adds the batch element's squared-error total and
  keypoint total to two one-element accumulators (reset to zero at the first point), picking each p as a sum of the
  block against two one-hot factors; the lines after the kernel divide and add. The reference sums over every index at
  once and picks each p by a gather. Over the extended reals a sum may be taken in any order and grouping, zero times
  anything is zero, and the clamp, the truncation, the divisions and the final sum are the same operations on both
  sides, so the three results agree; no finiteness of the inputs is used.

  The frames of the two kernel programs and the reference's run are generated modules; the kernel's value is read off
  its generated frame run.
-/
import proofs.«143987_j27900107554853_2_alg».proof.Defs
import proofs.«143987_j27900107554853_2_alg».proof.Proof.Gen.Kernel
import proofs.«143987_j27900107554853_2_alg».proof.Proof.Gen.Kernel.Skeleton
import proofs.«143987_j27900107554853_2_alg».proof.Proof.Gen.Kernel.Launch
import proofs.«143987_j27900107554853_2_alg».proof.Proof.Gen.Kernel.Points
import proofs.«143987_j27900107554853_2_alg».proof.Proof.Gen.Kernel.Frame
import proofs.«143987_j27900107554853_2_alg».proof.Proof.Gen.KernelIdeal
import proofs.«143987_j27900107554853_2_alg».proof.Proof.Gen.KernelIdeal.Skeleton
import proofs.«143987_j27900107554853_2_alg».proof.Proof.Gen.KernelIdeal.Launch
import proofs.«143987_j27900107554853_2_alg».proof.Proof.Gen.KernelIdeal.Points
import proofs.«143987_j27900107554853_2_alg».proof.Proof.Gen.KernelIdeal.Frame
import proofs.«143987_j27900107554853_2_alg».proof.Proof.Gen.ReferenceIdeal
import proofs.«143987_j27900107554853_2_alg».proof.Proof.Gen.Pre_finite_inputs
import proofs.«143987_j27900107554853_2_alg».proof.Proof.Gen.ReferenceIdeal.Run
import proofs.«143987_j27900107554853_2_alg».proof.Proof.Gen.ReferenceIdeal.Read
import proofs.«143987_j27900107554853_2_alg».proof.Proof.Totals
import proofs.«143987_j27900107554853_2_alg».proof.Proof.RefSide
import Idealize.ShloMosaic.Adequacy
import Idealize.ShloMosaic.Init

noncomputable section

namespace Cert.Proof

open Idealize.ShloMosaic Idealize.SL.Sem
open Cert.LossSpec Cert.KernelIdeal.Final Cert.KernelIdeal.Accum Cert.ReferenceIdeal.RefSide

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The ideal pass rewrote nothing. -/
theorem preserves : Cert.preserves_Kernel_KernelIdeal := trivial

/-- Both runs end with the three losses of the same two totals: the kernel's accumulators end at the sums over the
    batch of the batch elements' totals, which is what the reference's whole-array sums are, of arguments that agree. -/
theorem algebraic : Cert.algebraic_KernelIdeal_ReferenceIdeal := by
  intro m ρ m' ρ' _ hagree
  refine ⟨fun c => totOf (sseTot m c) (pckTot m c), fun c => mseOf (sseTot m c), fun c => pckOf (pckTot m c),
    Cert.KernelIdeal.Final.run m ρ, ?_⟩
  refine (θ_run Cert.ReferenceIdeal.defs _ _).mono (fun _ h c => ⟨?_, ?_, ?_, (h c).2.2.2⟩)
    (Cert.ReferenceIdeal.Value.run (F := Ideal) m' ρ')
  · refine (h c).1.trans ((Cert.ReferenceIdeal.Read.val_main_v51_eq m' c).trans ((v51_eq _ _ _).trans ?_))
    show _ = totOf (sseTot m c) (pckTot m c)
    rw [(hagree c).1, (hagree c).2.1, (hagree c).2.2, sseTot_eq m c, pckTot_eq m c]
    rfl
  · refine (h c).2.1.trans ((Cert.ReferenceIdeal.Read.val_main_v3_eq _ _).trans ((v3_eq _ _).trans ?_))
    show _ = mseOf (sseTot m c)
    rw [(hagree c).1, (hagree c).2.1, sseTot_eq m c]
    rfl
  · refine (h c).2.2.1.trans ((Cert.ReferenceIdeal.Read.val_main_v48_eq m' c).trans ((v48_eq _ _).trans ?_))
    show _ = pckOf (pckTot m c)
    rw [(hagree c).1, (hagree c).2.2, pckTot_eq m c]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
